-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x64 : Shape := ⟨2, ![600000, 64]⟩
abbrev S2x600000 : Shape := ⟨2, ![2, 600000]⟩
abbrev S320x32 : Shape := ⟨2, ![320, 32]⟩
abbrev S32 : Shape := ⟨1, ![32]⟩
abbrev S32x128 : Shape := ⟨2, ![32, 128]⟩
abbrev S128 : Shape := ⟨1, ![128]⟩
abbrev S256x64 : Shape := ⟨2, ![256, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x64 : S_.BroadcastsInDim S600000x64 (![] : Fin 0 → Fin S600000x64.rank)
  reducesTo_S600000x64_S_d0_1 : S600000x64.ReducesTo [0, 1] S_
  bcast_S_S320x32 : S_.BroadcastsInDim S320x32 (![] : Fin 0 → Fin S320x32.rank)
  reducesTo_S320x32_S_d0_1 : S320x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg8 : FVec F S64 .f32) (main_arg9 : FVec F S64x128 .f32) (main_arg10 : FVec F S128 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S32x128 .f32) (main_arg6 : FVec F S128 .f32) (main_arg7 : FVec F S256x64 .f32) (main_arg8 : FVec F S64 .f32) (main_arg9 : FVec F S64x128 .f32) (main_arg10 : FVec F S128 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x128 .f32 := Host.absf main_arg5
  let main_cst_6 : FVec F S_ .f32 := constant S_ .f32 0x7F800000#32
  let main_v20 : FVec F S32x128 .f32 := broadcastInDim S32x128 ![] bcast_S_S32x128 main_cst_6
  let main_v21 : IVec S32x128 1 := cmpf .olt main_v19 main_v20
  let main_c_7 : IVec S_ 1 := constantI S_ 1 1#1
  let main_v22 : IVec S_ 1 := (fun x v => Host.reduce IntOp.andi x v reducesTo_S32x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x64 .f32 := Host.absf main_arg7
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : FVec F S600000x64 .f32) (main_arg2 : IVec S2x600000 32) (main_arg3 : FVec F S320x32 .f32) (main_arg4 : FVec F S32 .f32) (main_arg5 : FVec F S32x128 .f32) (main_arg6 : FVec F S128 .f32) (main_arg7 : FVec F S256x64 .f32) (main_arg8 : FVec F S64 .f32) (main_arg9 : FVec F S64x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x64 .f32 := Host.absf main_arg1
  let main_cst_0 : FVec F S_ .f32 := constant S_ .f32 0x7F800000#32
  let main_v5 : FVec F S600000x64 .f32 := broadcastInDim S600000x64 ![] bcast_S_S600000x64 main_cst_0
  let main_v6 : IVec S600000x64 1 := cmpf .olt main_v4 main_v5
  let main_c_1 : IVec S_ 1 := constantI S_ 1 1#1
  let main_v7 : IVec S_ 1 := (fun x v => Host.reduce IntOp.andi x v reducesTo_S600000x64_S_d0_1 h_S_) main_v6 main_c_1
  let main_v8 : IVec S_ 1 := andi main_v3 main_v7
  let main_v9 : FVec F S320x32 .f32 := Host.absf main_arg3
  let main_cst_2 : FVec F S_ .f32 := constant S_ .f32 0x7F800000#32
  let main_v10 : FVec F S320x32 .f32 := broadcastInDim S320x32 ![] bcast_S_S320x32 main_cst_2
  let main_v11 : IVec S320x32 1 := cmpf .olt main_v9 main_v10
  let main_c_3 : IVec S_ 1 := constantI S_ 1 1#1
  let main_v12 : IVec S_ 1 := (fun x v => Host.reduce IntOp.andi x v reducesTo_S320x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S600000x64 : Shape := ⟨2, ![600000, 64]⟩
abbrev S2x600000 : Shape := ⟨2, ![2, 600000]⟩
abbrev S320x32 : Shape := ⟨2, ![320, 32]⟩
abbrev S32 : Shape := ⟨1, ![32]⟩
abbrev S32x128 : Shape := ⟨2, ![32, 128]⟩
abbrev S128 : Shape := ⟨1, ![128]⟩
abbrev S256x64 : Shape := ⟨2, ![256, 64]⟩
abbrev S64 : Shape := ⟨1, ![64]⟩
abbrev S64x128 : Shape := ⟨2, ![64, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S128x32 : Shape := ⟨2, ![128, 32]⟩
abbrev S64x32 : Shape := ⟨2, ![64, 32]⟩
abbrev S128x64 : Shape := ⟨2, ![128, 64]⟩
abbrev S4000x128 : Shape := ⟨2, ![4000, 128]⟩
abbrev S4000x64 : Shape := ⟨2, ![4000, 64]⟩
abbrev S4000x32 : Shape := ⟨2, ![4000, 32]⟩
abbrev S1x32 : Shape := ⟨2, ![1, 32]⟩
abbrev S1x128 : Shape := ⟨2, ![1, 128]⟩
abbrev S1x64 : Shape := ⟨2, ![1, 64]⟩

abbrev nBuf : Space → Nat
  | .hbm => 44
  | .vmem => 19
  | .smem => 0
  | _ => 0

abbrev bufTy : (tb : Table) → Fin (tcTables nBuf tb) → BufTy
  | .hbm, ⟨0, _⟩ => ⟨S50000x128, .f32⟩
  | .hbm, ⟨1, _⟩ => ⟨S600000x64, .f32⟩
  | .hbm, ⟨2, _⟩ => ⟨S2x600000, .i32⟩
  | .hbm, ⟨3, _⟩ => ⟨S320x32, .f32⟩
  | .hbm, ⟨4, _⟩ => ⟨S32, .f32⟩
  | .hbm, ⟨5, _⟩ => ⟨S32x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S128x32, .f32⟩
  | .hbm, ⟨34, _⟩ => ⟨S128x32, .f32⟩
  | .hbm, ⟨35, _⟩ => ⟨S64x32, .f32⟩
  | .hbm, ⟨36, _⟩ => ⟨S128x64, .f32⟩
  | .hbm, ⟨37, _⟩ => ⟨S128x64, .f32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x64, .f32⟩
  | .local _ .vmem, ⟨5, _⟩ => ⟨S4000x64, .f32⟩
  | .local _ .vmem, ⟨6, _⟩ => ⟨S128x32, .f32⟩
  | .local _ .vmem, ⟨7, _⟩ => ⟨S128x32, .f32⟩
  | .local _ .vmem, ⟨8, _⟩ => ⟨S64x32, .f32⟩
  | .local _ .vmem, ⟨9, _⟩ => ⟨S32, .f32⟩
  | .local _ .vmem, ⟨10, _⟩ => ⟨S32x128, .f32⟩
  | .local _ .vmem, ⟨11, _⟩ => ⟨S128, .f32⟩
  | .local _ .vmem, ⟨12, _⟩ => ⟨S128x64, .f32⟩
  | .local _ .vmem, ⟨13, _⟩ => ⟨S128x64, .f32⟩
  | .local _ .vmem, ⟨14, _⟩ => ⟨S64, .f32⟩
  | .local _ .vmem, ⟨15, _⟩ => ⟨S64x128, .f32⟩
  | .local _ .vmem, ⟨16, _⟩ => ⟨S128, .f32⟩
  | .local _ .vmem, ⟨17, _⟩ => ⟨S4000x128, .f32⟩
  | .local _ .vmem, ⟨18, _⟩ => ⟨S4000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg14_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem14_1 : DmaSem sig := 18

abbrev nD : Nat := 1
abbrev τ : Topo := Topo.v7x

variable {F : FTy → Type} [FloatOps F]

abbrev grid0 : Pipeline.Grid := ⟨1, ![150], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S4000x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  slices_S320x32_S128x32_0_0 : S320x32.Slices ![0, 0] S128x32
  slices_S320x32_S128x32_128_0 : S320x32.Slices ![128, 0] S128x32
  slices_S320x32_S64x32_256_0 : S320x32.Slices ![256, 0] S64x32
  slices_S256x64_S128x64_0_0 : S256x64.Slices ![0, 0] S128x64
  slices_S256x64_S128x64_128_0 : S256x64.Slices ![128, 0] S128x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S64x32_S64x32_0_0 : ∀ a, (![0, 0] : Fin 2 → Nat) a + S64x32.size a ≤ S64x32.size a
  h_S64x32 : 0 < S64x32.numel
  shapeCasts_S64x32_S64x32 : S64x32.ShapeCasts S64x32
  inb_S32_S32_0 : ∀ a, (![0] : Fin 1 → Nat) a + S32.size a ≤ S32.size a
  h_S32 : 0 < S32.numel
  shapeCasts_S32_S1x32 : S32.ShapeCasts S1x32
  broadcasts_S1x32_S4000x32 : S1x32.Broadcasts S4000x32
  inb_S32x128_S32x128_0_0 : ∀ a, (![0, 0] : Fin 2 → Nat) a + S32x128.size a ≤ S32x128.size a
  h_S32x128 : 0 < S32x128.numel
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x128_S64x128_0_0 : ∀ a, (![0, 0] : Fin 2 → Nat) a + S64x128.size a ≤ S64x128.size a
  h_S64x128 : 0 < S64x128.numel
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  dot_S4000x128_S128x32_S4000x32_1_0_0_1_n_n_wf : DotDims.WF S4000x128 S128x32 S4000x32 [1] [0] [0] [1] [] []
  dot_S4000x64_S64x32_S4000x32_1_0_0_1_n_n_wf : DotDims.WF S4000x64 S64x32 S4000x32 [1] [0] [0] [1] [] []
  dot_S4000x32_S32x128_S4000x128_1_0_0_1_n_n_wf : DotDims.WF S4000x32 S32x128 S4000x128 [1] [0] [0] [1] [] []
  dot_S4000x128_S128x64_S4000x64_1_0_0_1_n_n_wf : DotDims.WF S4000x128 S128x64 S4000x64 [1] [0] [0] [1] [] []
  dot_S4000x64_S64x128_S4000x128_1_0_0_1_n_n_wf : DotDims.WF S4000x64 S64x128 S4000x128 [1] [0] [0] [1] [] []
  scatter_S50000x128_S600000x1_S600000x128_1_0_0_1_wf : ScatterDims.WF S50000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S600000x128.size a
  hwx0_0 : ∀ i : grid0.Coords, EltTy.bits .f32 = 32 ∨ (Rect.block (s := S600000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S600000x128.size a
  hwx0_1 : ∀ i : grid0.Coords, EltTy.bits .f32 = 32 ∨ (Rect.block (s := S600000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S600000x64.size a
  hwx0_2 : ∀ i : grid0.Coords, EltTy.bits .f32 = 32 ∨ (Rect.block (s := S600000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x32.size a ≤ S128x32.size a
  hwx0_3 : ∀ i : grid0.Coords, EltTy.bits .f32 = 32 ∨ (Rect.block (s := S128x32) S128x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x128.size a ≤ S32x128.size a
  hwx0_7 : ∀ i : grid0.Coords, EltTy.bits .f32 = 32 ∨ (Rect.block (s := S32x128) S32x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x64.size a ≤ S128x64.size a
  hwx0_9 : ∀ i : grid0.Coords, EltTy.bits .f32 = 32 ∨ (Rect.block (s := S128x64) S128x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x64.size a ≤ S128x64.size a
  hwx0_10 : ∀ i : grid0.Coords, EltTy.bits .f32 = 32 ∨ (Rect.block (s := S128x64) S128x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x128.size a ≤ S64x128.size a
  hwx0_12 : ∀ i : grid0.Coords, EltTy.bits .f32 = 32 ∨ (Rect.block (s := S64x128) S64x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128.size a ≤ S128.size a
  hwx0_13 : ∀ i : grid0.Coords, EltTy.bits .f32 = 32 ∨ (Rect.block (s := S128) S128.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S4000x128.size a ≤ S600000x128.size a
  hwx0_14 : ∀ i : grid0.Coords, EltTy.bits .f32 = 32 ∨ (Rect.block (s := S600000x128) S4000x128.size (cc0_transform_14 i) (hinb0_14 i)).WholeWords (EltTy.packing .f32)

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S4000x128_S128x32_S4000x32_1_0_0_1_n_n : DotDims S4000x128 S128x32 S4000x32 where
  lhsContracting := [1]
  rhsContracting := [0]
  lhsNonContracting := [0]
  rhsNonContracting := [1]
  lhsBatch := []
  rhsBatch := []
  wf := dot_S4000x128_S128x32_S4000x32_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def dot_S4000x32_S32x128_S4000x128_1_0_0_1_n_n : DotDims S4000x32 S32x128 S4000x128 where
  lhsContracting := [1]
  rhsContracting := [0]
  lhsNonContracting := [0]
  rhsNonContracting := [1]
  lhsBatch := []
  rhsBatch := []
  wf := dot_S4000x32_S32x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

abbrev win0_0 : Pipeline.Window sig grid0 :=
  Pipeline.Window.ofSpec (Memref.whole main_v10) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S32x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v21) S128x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v22) S128x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg8) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg9) S64x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg10) S128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v23) S4000x128.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S50000x128 : Shape := ⟨2, ![50000, 128]⟩
abbrev S600000x64 : Shape := ⟨2, ![600000, 64]⟩
abbrev S2x600000 : Shape := ⟨2, ![2, 600000]⟩
abbrev S320x32 : Shape := ⟨2, ![320, 32]⟩
abbrev S32 : Shape := ⟨1, ![32]⟩
abbrev S32x128 : Shape := ⟨2, ![32, 128]⟩
abbrev S128 : Shape := ⟨1, ![128]⟩
abbrev S256x64 : Shape := ⟨2, ![256, 64]⟩
abbrev S64 : Shape := ⟨1, ![64]⟩
abbrev S64x128 : Shape := ⟨2, ![64, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S600000x320 : Shape := ⟨2, ![600000, 320]⟩
abbrev S600000x32 : Shape := ⟨2, ![600000, 32]⟩
abbrev S1x32 : Shape := ⟨2, ![1, 32]⟩
abbrev S1x128 : Shape := ⟨2, ![1, 128]⟩
abbrev S600000x256 : Shape := ⟨2, ![600000, 256]⟩
abbrev S1x64 : Shape := ⟨2, ![1, 64]⟩

abbrev nBuf : Space → Nat
  | .hbm => 68
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x64, .f32⟩
  | .hbm, ⟨2, _⟩ => ⟨S2x600000, .i32⟩
  | .hbm, ⟨3, _⟩ => ⟨S320x32, .f32⟩
  | .hbm, ⟨4, _⟩ => ⟨S32, .f32⟩
  | .hbm, ⟨5, _⟩ => ⟨S32x128, .f32⟩
  | .hbm, ⟨6, _⟩ => ⟨S128, .f32⟩
  | .hbm, ⟨7, _⟩ => ⟨S256x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S1x600000, .i32⟩
  | .hbm, ⟨12, _⟩ => ⟨S600000, .i32⟩
  | .hbm, ⟨13, _⟩ => ⟨S1x600000, .i32⟩
  | .hbm, ⟨14, _⟩ => ⟨S600000, .i32⟩
  | .hbm, ⟨15, _⟩ => ⟨S_, .i32⟩
  | .hbm, ⟨16, _⟩ => ⟨S600000, .i32⟩
  | .hbm, ⟨17, _⟩ => ⟨S600000, .i1⟩
  | .hbm, ⟨18, _⟩ => ⟨S_, .i32⟩
  | .hbm, ⟨19, _⟩ => ⟨S600000, .i32⟩
  | .hbm, ⟨20, _⟩ => ⟨S600000, .i32⟩
  | .hbm, ⟨21, _⟩ => ⟨S600000, .i32⟩
  | .hbm, ⟨22, _⟩ => ⟨S600000x1, .i32⟩
  | .hbm, ⟨23, _⟩ => ⟨S600000x128, .f32⟩
  | .hbm, ⟨24, _⟩ => ⟨S_, .i32⟩
  | .hbm, ⟨25, _⟩ => ⟨S600000, .i32⟩
  | .hbm, ⟨26, _⟩ => ⟨S600000, .i1⟩
  | .hbm, ⟨27, _⟩ => ⟨S_, .i32⟩
  | .hbm, ⟨28, _⟩ => ⟨S600000, .i32⟩
  | .hbm, ⟨29, _⟩ => ⟨S600000, .i32⟩
  | .hbm, ⟨30, _⟩ => ⟨S600000, .i32⟩
  | .hbm, ⟨31, _⟩ => ⟨S600000x1, .i32⟩
  | .hbm, ⟨32, _⟩ => ⟨S600000x128, .f32⟩
  | .hbm, ⟨33, _⟩ => ⟨S600000x320, .f32⟩
  | .hbm, ⟨34, _⟩ => ⟨S600000x32, .f32⟩
  | .hbm, ⟨35, _⟩ => ⟨S1x32, .f32⟩
  | .hbm, ⟨36, _⟩ => ⟨S600000x32, .f32⟩
  | .hbm, ⟨37, _⟩ => ⟨S600000x32, .f32⟩
  | .hbm, ⟨38, _⟩ => ⟨S_, .f32⟩
  | .hbm, ⟨39, _⟩ => ⟨S600000x32, .f32⟩
  | .hbm, ⟨40, _⟩ => ⟨S600000x32, .f32⟩
  | .hbm, ⟨41, _⟩ => ⟨S600000x128, .f32⟩
  | .hbm, ⟨42, _⟩ => ⟨S1x128, .f32⟩
  | .hbm, ⟨43, _⟩ => ⟨S600000x128, .f32⟩
  | .hbm, ⟨44, _⟩ => ⟨S600000x128, .f32⟩
  | .hbm, ⟨45, _⟩ => ⟨S_, .f32⟩
  | .hbm, ⟨46, _⟩ => ⟨S600000x128, .f32⟩
  | .hbm, ⟨47, _⟩ => ⟨S600000x128, .f32⟩
  | .hbm, ⟨48, _⟩ => ⟨S600000x256, .f32⟩
  | .hbm, ⟨49, _⟩ => ⟨S600000x64, .f32⟩
  | .hbm, ⟨50, _⟩ => ⟨S1x64, .f32⟩
  | .hbm, ⟨51, _⟩ => ⟨S600000x64, .f32⟩
  | .hbm, ⟨52, _⟩ => ⟨S600000x64, .f32⟩
  | .hbm, ⟨53, _⟩ => ⟨S_, .f32⟩
  | .hbm, ⟨54, _⟩ => ⟨S600000x64, .f32⟩
  | .hbm, ⟨55, _⟩ => ⟨S600000x64, .f32⟩
  | .hbm, ⟨56, _⟩ => ⟨S600000x128, .f32⟩
  | .hbm, ⟨57, _⟩ => ⟨S1x128, .f32⟩
  | .hbm, ⟨58, _⟩ => ⟨S600000x128, .f32⟩
  | .hbm, ⟨59, _⟩ => ⟨S600000x128, .f32⟩
  | .hbm, ⟨60, _⟩ => ⟨S_, .f32⟩
  | .hbm, ⟨61, _⟩ => ⟨S600000x128, .f32⟩
  | .hbm, ⟨62, _⟩ => ⟨S600000x128, .f32⟩
  | .hbm, ⟨63, _⟩ => ⟨S_, .f32⟩
  | .hbm, ⟨64, _⟩ => ⟨S50000x128, .f32⟩
  | .hbm, ⟨65, _⟩ => ⟨S600000x1, .i32⟩
  | .hbm, ⟨66, _⟩ => ⟨S50000x128, .f32⟩
  | .hbm, ⟨67, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_cst : Ref sig .tc := ⟨.hbm, 38, rfl⟩
abbrev main_call0_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_call1_cst : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_call2_cst : Ref sig .tc := ⟨.hbm, 53, rfl⟩
abbrev main_call2_v0 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call3_cst : Ref sig .tc := ⟨.hbm, 60, rfl⟩
abbrev main_call3_v0 : Ref sig .tc := ⟨.hbm, 61, rfl⟩
abbrev main_v39 : Ref sig .tc := ⟨.hbm, 62, rfl⟩
abbrev main_cst : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  concatenates_S600000x128_S600000x128_S600000x64_S600000x320_d1 : Shape.Concatenates [S600000x128, S600000x128, S600000x64] S600000x320 1
  bcast_S32_S1x32_1 : S32.BroadcastsInDim S1x32 (![1] : Fin 1 → Fin S1x32.rank)
  bcast_S1x32_S600000x32_0_1 : S1x32.BroadcastsInDim S600000x32 (![0, 1] : Fin 2 → Fin S600000x32.rank)
  bcast_S_S600000x32 : S_.BroadcastsInDim S600000x32 (![] : Fin 0 → Fin S600000x32.rank)
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  concatenates_S600000x128_S600000x128_S600000x256_d1 : Shape.Concatenates [S600000x128, S600000x128] S600000x256 1
  bcast_S64_S1x64_1 : S64.BroadcastsInDim S1x64 (![1] : Fin 1 → Fin S1x64.rank)
  bcast_S1x64_S600000x64_0_1 : S1x64.BroadcastsInDim S600000x64 (![0, 1] : Fin 2 → Fin S600000x64.rank)
  bcast_S_S600000x64 : S_.BroadcastsInDim S600000x64 (![] : Fin 0 → Fin S600000x64.rank)
  bcast_S_S50000x128 : S_.BroadcastsInDim S50000x128 (![] : Fin 0 → Fin S50000x128.rank)
  gather_S50000x128_S600000x1_S600000x128_1_0_n_n_0_1_1128_wf : GatherDims.WF S50000x128 S600000x1 S600000x128 [1] [0] [] [0] [] 1 ![1, 128]
  dot_S600000x320_S320x32_S600000x32_1_0_0_1_n_n_wf : DotDims.WF S600000x320 S320x32 S600000x32 [1] [0] [0] [1] [] []
  dot_S600000x32_S32x128_S600000x128_1_0_0_1_n_n_wf : DotDims.WF S600000x32 S32x128 S600000x128 [1] [0] [0] [1] [] []
  dot_S600000x256_S256x64_S600000x64_1_0_0_1_n_n_wf : DotDims.WF S600000x256 S256x64 S600000x64 [1] [0] [0] [1] [] []
  dot_S600000x64_S64x128_S600000x128_1_0_0_1_n_n_wf : DotDims.WF S600000x64 S64x128 S600000x128 [1] [0] [0] [1] [] []
  scatter_S50000x128_S600000x1_S600000x128_1_0_0_1_wf : ScatterDims.WF S50000x128 S600000x1 S600000x128 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x320_S320x32_S600000x32_1_0_0_1_n_n : DotDims S600000x320 S320x32 S600000x32 where
  lhsContracting := [1]
  rhsContracting := [0]
  lhsNonContracting := [0]
  rhsNonContracting := [1]
  lhsBatch := []
  rhsBatch := []
  wf := dot_S600000x320_S320x32_S600000x32_1_0_0_1_n_n_wf
def dot_S600000x32_S32x128_S600000x128_1_0_0_1_n_n : DotDims S600000x32 S32x128 S600000x128 where
  lhsContracting := [1]
  rhsContracting := [0]
  lhsNonContracting := [0]
  rhsNonContracting := [1]
  lhsBatch := []
  rhsBatch := []
  wf := dot_S600000x32_S32x128_S600000x128_1_0_0_1_n_n_wf
def dot_S600000x256_S256x64_S600000x64_1_0_0_1_n_n : DotDims S600000x256 S256x64 S600000x64 where
  lhsContracting := [1]
  rhsContracting := [0]
  lhsNonContracting := [0]
  rhsNonContracting := [1]
  lhsBatch := []
  rhsBatch := []
  wf := dot_S600000x256_S256x64_S600000x64_1_0_0_1_n_n_wf
def dot_S600000x64_S64x128_S600000x128_1_0_0_1_n_n : DotDims S600000x64 S64x128 S600000x128 where
  lhsContracting := [1]
  rhsContracting := [0]
  lhsNonContracting := [0]
  rhsNonContracting := [1]
  lhsBatch := []
  rhsBatch := []
  wf := dot_S600000x64_S64x128_S600000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf

class Facts : Prop extends Facts₀ where

variable [Facts]
-- ==== Proof.KernelProducts.lean ====
/-
  The kernel's five matrix products, read at an entry.

  Each product is `tpu.matmul` of a block of 4000 rows with a whole weight matrix into a zero accumulator. Over the
  extended reals entry `(p, k)` of such a product is the plain sum, over the shared axis, of left entry `(p, a)`
  times right entry `(a, k)`: the zero accumulator adds nothing, and the one contracted axis is re-indexed by its
  position.
-/
import proofs.«163053_j33835752358328_2_alg».proof.Proof.Gen.KernelIdeal
import Idealize.ShloMosaic.Lib.ValueIdx
import Idealize.ShloMosaic.PureOps.Ideal.Laws

noncomputable section

namespace Cert.KernelIdeal.Products

open Cert.KernelIdeal Idealize.ShloMosaic Idealize.ShloMosaic.ValueIdx

/-- The row coordinate of the left operand's index is the result's row. -/
theorem lhs_row_a128x32 (i : S4000x32.Idx) (q : dot_S4000x128_S128x32_S4000x32_1_0_0_1_n_n.contr.Idx) :
    (dot_S4000x128_S128x32_S4000x32_1_0_0_1_n_n.lhsIdx i q 0).val = (i 0).val := by
  unfold DotDims.lhsIdx
  rw [dif_neg (show ¬(0 : Fin S4000x128.rank) ∈ dot_S4000x128_S128x32_S4000x32_1_0_0_1_n_n.lhsBatch by decide), dif_pos (show (0 : Fin S4000x128.rank) ∈ dot_S4000x128_S128x32_S4000x32_1_0_0_1_n_n.lhsNonContracting by decide)]
  rfl

/-- The column coordinate of the right operand's index is the result's column. -/
theorem rhs_col_a128x32 (i : S4000x32.Idx) (q : dot_S4000x128_S128x32_S4000x32_1_0_0_1_n_n.contr.Idx) :
    (dot_S4000x128_S128x32_S4000x32_1_0_0_1_n_n.rhsIdx i q 1).val = (i 1).val := by
  unfold DotDims.rhsIdx
  rw [dif_neg (show ¬(1 : Fin S128x32.rank) ∈ dot_S4000x128_S128x32_S4000x32_1_0_0_1_n_n.rhsBatch by decide), dif_pos (show (1 : Fin S128x32.rank) ∈ dot_S4000x128_S128x32_S4000x32_1_0_0_1_n_n.rhsNonContracting by decide)]
  rfl

/-- A 4000×128 by 128×32 product into a zero accumulator, at entry `(p, k)`: the sum over the 128 shared positions `a` of
    the left operand at `(p, a)` times the right operand at `(a, k)`. -/
theorem matmul_a128x32 {φ₁ φ₂ : FTy} (l : FVec Ideal S4000x128 φ₁) (r : FVec Ideal S128x32 φ₂) (p : Fin 4000) (k : Fin 32) :
    matmul dot_S4000x128_S128x32_S4000x32_1_0_0_1_n_n none l r (constant S4000x32 .f32 0x00000000#32) (ix2 p k)
      = ∑ a : Fin 128, l (ix2 p a) * r (ix2 a k) := by
  refine (Ideal.matmul_constant_zero_apply dot_S4000x128_S128x32_S4000x32_1_0_0_1_n_n none l r (ix2 p k)).trans ?_
  rw [← Equiv.sum_comp (contrEquiv1 dot_S4000x128_S128x32_S4000x32_1_0_0_1_n_n 128 rfl rfl).symm]
  refine Finset.sum_congr rfl fun a _ => ?_
  have hk := contrEquiv1_symm_val dot_S4000x128_S128x32_S4000x32_1_0_0_1_n_n 128 rfl rfl a
  have el : dot_S4000x128_S128x32_S4000x32_1_0_0_1_n_n.lhsIdx (ix2 p k) ((contrEquiv1 dot_S4000x128_S128x32_S4000x32_1_0_0_1_n_n 128 rfl rfl).symm a) = ix2 p a :=
    funext fun ax => Fin.ext (by
      match ax with
      | ⟨0, _⟩ => exact lhs_row_a128x32 _ _
      | ⟨1, _⟩ => exact (dot_S4000x128_S128x32_S4000x32_1_0_0_1_n_n.lhsIdx_val_of_single rfl _ _).trans hk)
  have er : dot_S4000x128_S128x32_S4000x32_1_0_0_1_n_n.rhsIdx (ix2 p k) ((contrEquiv1 dot_S4000x128_S128x32_S4000x32_1_0_0_1_n_n 128 rfl rfl).symm a) = ix2 a k :=
    funext fun ax => Fin.ext (by
      match ax with
      | ⟨0, _⟩ => exact (dot_S4000x128_S128x32_S4000x32_1_0_0_1_n_n.rhsIdx_val_of_single rfl _ _).trans hk
      | ⟨1, _⟩ => exact rhs_col_a128x32 _ _)
  rw [el, er]

/-- The row coordinate of the left operand's index is the result's row. -/
theorem lhs_row_a64x32 (i : S4000x32.Idx) (q : dot_S4000x64_S64x32_S4000x32_1_0_0_1_n_n.contr.Idx) :
    (dot_S4000x64_S64x32_S4000x32_1_0_0_1_n_n.lhsIdx i q 0).val = (i 0).val := by
  unfold DotDims.lhsIdx
  rw [dif_neg (show ¬(0 : Fin S4000x64.rank) ∈ dot_S4000x64_S64x32_S4000x32_1_0_0_1_n_n.lhsBatch by decide), dif_pos (show (0 : Fin S4000x64.rank) ∈ dot_S4000x64_S64x32_S4000x32_1_0_0_1_n_n.lhsNonContracting by decide)]
  rfl

/-- The column coordinate of the right operand's index is the result's column. -/
theorem rhs_col_a64x32 (i : S4000x32.Idx) (q : dot_S4000x64_S64x32_S4000x32_1_0_0_1_n_n.contr.Idx) :
    (dot_S4000x64_S64x32_S4000x32_1_0_0_1_n_n.rhsIdx i q 1).val = (i 1).val := by
  unfold DotDims.rhsIdx
  rw [dif_neg (show ¬(1 : Fin S64x32.rank) ∈ dot_S4000x64_S64x32_S4000x32_1_0_0_1_n_n.rhsBatch by decide), dif_pos (show (1 : Fin S64x32.rank) ∈ dot_S4000x64_S64x32_S4000x32_1_0_0_1_n_n.rhsNonContracting by decide)]
  rfl

/-- A 4000×64 by 64×32 product into a zero accumulator, at entry `(p, k)`: the sum over the 64 shared positions `a` of
    the left operand at `(p, a)` times the right operand at `(a, k)`. -/
theorem matmul_a64x32 {φ₁ φ₂ : FTy} (l : FVec Ideal S4000x64 φ₁) (r : FVec Ideal S64x32 φ₂) (p : Fin 4000) (k : Fin 32) :
    matmul dot_S4000x64_S64x32_S4000x32_1_0_0_1_n_n none l r (constant S4000x32 .f32 0x00000000#32) (ix2 p k)
      = ∑ a : Fin 64, l (ix2 p a) * r (ix2 a k) := by
  refine (Ideal.matmul_constant_zero_apply dot_S4000x64_S64x32_S4000x32_1_0_0_1_n_n none l r (ix2 p k)).trans ?_
  rw [← Equiv.sum_comp (contrEquiv1 dot_S4000x64_S64x32_S4000x32_1_0_0_1_n_n 64 rfl rfl).symm]
  refine Finset.sum_congr rfl fun a _ => ?_
  have hk := contrEquiv1_symm_val dot_S4000x64_S64x32_S4000x32_1_0_0_1_n_n 64 rfl rfl a
  have el : dot_S4000x64_S64x32_S4000x32_1_0_0_1_n_n.lhsIdx (ix2 p k) ((contrEquiv1 dot_S4000x64_S64x32_S4000x32_1_0_0_1_n_n 64 rfl rfl).symm a) = ix2 p a :=
    funext fun ax => Fin.ext (by
      match ax with
      | ⟨0, _⟩ => exact lhs_row_a64x32 _ _
      | ⟨1, _⟩ => exact (dot_S4000x64_S64x32_S4000x32_1_0_0_1_n_n.lhsIdx_val_of_single rfl _ _).trans hk)
  have er : dot_S4000x64_S64x32_S4000x32_1_0_0_1_n_n.rhsIdx (ix2 p k) ((contrEquiv1 dot_S4000x64_S64x32_S4000x32_1_0_0_1_n_n 64 rfl rfl).symm a) = ix2 a k :=
    funext fun ax => Fin.ext (by
      match ax with
      | ⟨0, _⟩ => exact (dot_S4000x64_S64x32_S4000x32_1_0_0_1_n_n.rhsIdx_val_of_single rfl _ _).trans hk
      | ⟨1, _⟩ => exact rhs_col_a64x32 _ _)
  rw [el, er]

/-- The row coordinate of the left operand's index is the result's row. -/
theorem lhs_row_a32x128 (i : S4000x128.Idx) (q : dot_S4000x32_S32x128_S4000x128_1_0_0_1_n_n.contr.Idx) :
    (dot_S4000x32_S32x128_S4000x128_1_0_0_1_n_n.lhsIdx i q 0).val = (i 0).val := by
  unfold DotDims.lhsIdx
  rw [dif_neg (show ¬(0 : Fin S4000x32.rank) ∈ dot_S4000x32_S32x128_S4000x128_1_0_0_1_n_n.lhsBatch by decide), dif_pos (show (0 : Fin S4000x32.rank) ∈ dot_S4000x32_S32x128_S4000x128_1_0_0_1_n_n.lhsNonContracting by decide)]
  rfl

/-- The column coordinate of the right operand's index is the result's column. -/
theorem rhs_col_a32x128 (i : S4000x128.Idx) (q : dot_S4000x32_S32x128_S4000x128_1_0_0_1_n_n.contr.Idx) :
    (dot_S4000x32_S32x128_S4000x128_1_0_0_1_n_n.rhsIdx i q 1).val = (i 1).val := by
  unfold DotDims.rhsIdx
  rw [dif_neg (show ¬(1 : Fin S32x128.rank) ∈ dot_S4000x32_S32x128_S4000x128_1_0_0_1_n_n.rhsBatch by decide), dif_pos (show (1 : Fin S32x128.rank) ∈ dot_S4000x32_S32x128_S4000x128_1_0_0_1_n_n.rhsNonContracting by decide)]
  rfl

/-- A 4000×32 by 32×128 product into a zero accumulator, at entry `(p, k)`: the sum over the 32 shared positions `a` of
    the left operand at `(p, a)` times the right operand at `(a, k)`. -/
theorem matmul_a32x128 {φ₁ φ₂ : FTy} (l : FVec Ideal S4000x32 φ₁) (r : FVec Ideal S32x128 φ₂) (p : Fin 4000) (k : Fin 128) :
    matmul dot_S4000x32_S32x128_S4000x128_1_0_0_1_n_n none l r (constant S4000x128 .f32 0x00000000#32) (ix2 p k)
      = ∑ a : Fin 32, l (ix2 p a) * r (ix2 a k) := by
  refine (Ideal.matmul_constant_zero_apply dot_S4000x32_S32x128_S4000x128_1_0_0_1_n_n none l r (ix2 p k)).trans ?_
  rw [← Equiv.sum_comp (contrEquiv1 dot_S4000x32_S32x128_S4000x128_1_0_0_1_n_n 32 rfl rfl).symm]
  refine Finset.sum_congr rfl fun a _ => ?_
  have hk := contrEquiv1_symm_val dot_S4000x32_S32x128_S4000x128_1_0_0_1_n_n 32 rfl rfl a
  have el : dot_S4000x32_S32x128_S4000x128_1_0_0_1_n_n.lhsIdx (ix2 p k) ((contrEquiv1 dot_S4000x32_S32x128_S4000x128_1_0_0_1_n_n 32 rfl rfl).symm a) = ix2 p a :=
    funext fun ax => Fin.ext (by
      match ax with
      | ⟨0, _⟩ => exact lhs_row_a32x128 _ _
      | ⟨1, _⟩ => exact (dot_S4000x32_S32x128_S4000x128_1_0_0_1_n_n.lhsIdx_val_of_single rfl _ _).trans hk)
  have er : dot_S4000x32_S32x128_S4000x128_1_0_0_1_n_n.rhsIdx (ix2 p k) ((contrEquiv1 dot_S4000x32_S32x128_S4000x128_1_0_0_1_n_n 32 rfl rfl).symm a) = ix2 a k :=
    funext fun ax => Fin.ext (by
      match ax with
      | ⟨0, _⟩ => exact (dot_S4000x32_S32x128_S4000x128_1_0_0_1_n_n.rhsIdx_val_of_single rfl _ _).trans hk
      | ⟨1, _⟩ => exact rhs_col_a32x128 _ _)
  rw [el, er]

/-- The row coordinate of the left operand's index is the result's row. -/
theorem lhs_row_a128x64 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl

/-- The column coordinate of the right operand's index is the result's column. -/
theorem rhs_col_a128x64 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- A 4000×128 by 128×64 product into a zero accumulator, at entry `(p, k)`: the sum over the 128 shared positions `a` of
    the left operand at `(p, a)` times the right operand at `(a, k)`. -/
theorem matmul_a128x64 {φ₁ φ₂ : FTy} (l : FVec Ideal S4000x128 φ₁) (r : FVec Ideal S128x64 φ₂) (p : Fin 4000) (k : Fin 64) :
    matmul dot_S4000x128_S128x64_S4000x64_1_0_0_1_n_n none l r (constant S4000x64 .f32 0x00000000#32) (ix2 p k)
      = ∑ a : Fin 128, l (ix2 p a) * r (ix2 a k) := by
  refine (Ideal.matmul_constant_zero_apply dot_S4000x128_S128x64_S4000x64_1_0_0_1_n_n none l r (ix2 p k)).trans ?_
  rw [← Equiv.sum_comp (contrEquiv1 dot_S4000x128_S128x64_S4000x64_1_0_0_1_n_n 128 rfl rfl).symm]
  refine Finset.sum_congr rfl fun a _ => ?_
  have hk := contrEquiv1_symm_val dot_S4000x128_S128x64_S4000x64_1_0_0_1_n_n 128 rfl rfl a
  have el : dot_S4000x128_S128x64_S4000x64_1_0_0_1_n_n.lhsIdx (ix2 p k) ((contrEquiv1 dot_S4000x128_S128x64_S4000x64_1_0_0_1_n_n 128 rfl rfl).symm a) = ix2 p a :=
    funext fun ax => Fin.ext (by
      match ax with
      | ⟨0, _⟩ => exact lhs_row_a128x64 _ _
      | ⟨1, _⟩ => exact (dot_S4000x128_S128x64_S4000x64_1_0_0_1_n_n.lhsIdx_val_of_single rfl _ _).trans hk)
  have er : dot_S4000x128_S128x64_S4000x64_1_0_0_1_n_n.rhsIdx (ix2 p k) ((contrEquiv1 dot_S4000x128_S128x64_S4000x64_1_0_0_1_n_n 128 rfl rfl).symm a) = ix2 a k :=
    funext fun ax => Fin.ext (by
      match ax with
      | ⟨0, _⟩ => exact (dot_S4000x128_S128x64_S4000x64_1_0_0_1_n_n.rhsIdx_val_of_single rfl _ _).trans hk
      | ⟨1, _⟩ => exact rhs_col_a128x64 _ _)
  rw [el, er]

/-- The row coordinate of the left operand's index is the result's row. -/
theorem lhs_row_a64x128 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl

/-- The column coordinate of the right operand's index is the result's column. -/
theorem rhs_col_a64x128 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- A 4000×64 by 64×128 product into a zero accumulator, at entry `(p, k)`: the sum over the 64 shared positions `a` of
    the left operand at `(p, a)` times the right operand at `(a, k)`. -/
theorem matmul_a64x128 {φ₁ φ₂ : FTy} (l : FVec Ideal S4000x64 φ₁) (r : FVec Ideal S64x128 φ₂) (p : Fin 4000) (k : Fin 128) :
    matmul dot_S4000x64_S64x128_S4000x128_1_0_0_1_n_n none l r (constant S4000x128 .f32 0x00000000#32) (ix2 p k)
      = ∑ a : Fin 64, l (ix2 p a) * r (ix2 a k) := by
  refine (Ideal.matmul_constant_zero_apply dot_S4000x64_S64x128_S4000x128_1_0_0_1_n_n none l r (ix2 p k)).trans ?_
  rw [← Equiv.sum_comp (contrEquiv1 dot_S4000x64_S64x128_S4000x128_1_0_0_1_n_n 64 rfl rfl).symm]
  refine Finset.sum_congr rfl fun a _ => ?_
  have hk := contrEquiv1_symm_val dot_S4000x64_S64x128_S4000x128_1_0_0_1_n_n 64 rfl rfl a
  have el : dot_S4000x64_S64x128_S4000x128_1_0_0_1_n_n.lhsIdx (ix2 p k) ((contrEquiv1 dot_S4000x64_S64x128_S4000x128_1_0_0_1_n_n 64 rfl rfl).symm a) = ix2 p a :=
    funext fun ax => Fin.ext (by
      match ax with
      | ⟨0, _⟩ => exact lhs_row_a64x128 _ _
      | ⟨1, _⟩ => exact (dot_S4000x64_S64x128_S4000x128_1_0_0_1_n_n.lhsIdx_val_of_single rfl _ _).trans hk)
  have er : dot_S4000x64_S64x128_S4000x128_1_0_0_1_n_n.rhsIdx (ix2 p k) ((contrEquiv1 dot_S4000x64_S64x128_S4000x128_1_0_0_1_n_n 64 rfl rfl).symm a) = ix2 a k :=
    funext fun ax => Fin.ext (by
      match ax with
      | ⟨0, _⟩ => exact (dot_S4000x64_S64x128_S4000x128_1_0_0_1_n_n.rhsIdx_val_of_single rfl _ _).trans hk
      | ⟨1, _⟩ => exact rhs_col_a64x128 _ _)
  rw [el, er]

end Cert.KernelIdeal.Products

end
-- ==== Proof.EdgeNet.lean ====
/-
  The message network of one edge, over the extended reals.

  An edge carries three rows: the features `s` of its source node, the features `d` of its destination node
  (128 numbers each) and its own features `e` (64 numbers). Two dense layers with ReLU turn `[s | d | e]` into the
  edge message (320 → 32 → 128), and two more turn `[d | edge message]` into the node message (256 → 64 → 128).

  The first layer of each pair multiplies a CONCATENATED row by a matrix. Splitting the matrix into the row blocks
  that meet each piece of the concatenation turns that one long sum into a sum of shorter ones:
      ∑_{k<320} [s|d|e]_k · W_{k,j} = ∑_{a<128} s_a · W_{a,j} + ∑_{a<128} d_a · W_{128+a,j} + ∑_{a<64} e_a · W_{256+a,j}.
  This is a regrouping of a finite sum, so it holds in every additive commutative monoid, the extended reals among
  them: no term is moved across a product and nothing is cancelled, so no finiteness is needed.
-/
import Idealize.ShloMosaic.PureOps.Ideal
import Idealize.ShloMosaic.Lib.ValueIdx

noncomputable section

namespace Cert.EdgeNet

open Idealize.ShloMosaic Idealize.ShloMosaic.ValueIdx

/-! ## Regrouping a sum over 320 or 256 terms -/

/-- A sum over 256 terms is the sum over the first 128 plus the sum over the last 128. -/
theorem sum_split2 {M : Type*} [AddCommMonoid M] (f : Fin 256 → M) :
    ∑ k : Fin 256, f k = (∑ a : Fin 128, f ⟨a.val, by omega⟩) + ∑ a : Fin 128, f ⟨128 + a.val, by omega⟩ :=
  Fin.sum_univ_add (a := 128) (b := 128) f

/-- A sum over 320 terms is the sum over the first 128, plus the next 128, plus the last 64. -/
theorem sum_split3 {M : Type*} [AddCommMonoid M] (f : Fin 320 → M) :
    ∑ k : Fin 320, f k
      = ((∑ a : Fin 128, f ⟨a.val, by omega⟩) + ∑ a : Fin 128, f ⟨128 + a.val, by omega⟩)
        + ∑ a : Fin 64, f ⟨256 + a.val, by omega⟩ := by
  refine (Fin.sum_univ_add (a := 256) (b := 64) f).trans ?_
  refine congrArg₂ (· + ·) ?_ rfl
  exact sum_split2 fun i => f (Fin.castAdd 64 i)

/-! ## The four layers -/

/-- The weights of the network as the layers use them: the first matrix of each encoder already cut into the row
    blocks that meet the source row, the destination row, the edge row and the edge message. -/
structure Weights where
  We1s : Fin 128 → Fin 32 → EReal
  We1d : Fin 128 → Fin 32 → EReal
  We1e : Fin 64 → Fin 32 → EReal
  be1 : Fin 32 → EReal
  We2 : Fin 32 → Fin 128 → EReal
  be2 : Fin 128 → EReal
  Wn1d : Fin 128 → Fin 64 → EReal
  Wn1m : Fin 128 → Fin 64 → EReal
  bn1 : Fin 64 → EReal
  Wn2 : Fin 64 → Fin 128 → EReal
  bn2 : Fin 128 → EReal

/-- The edge encoder's hidden layer: `relu (s · We1s + d · We1d + e · We1e + be1)`. -/
def hidden (P : Weights) (s d : Fin 128 → EReal) (e : Fin 64 → EReal) (k : Fin 32) : EReal :=
  max ((((∑ a : Fin 128, s a * P.We1s a k) + ∑ a : Fin 128, d a * P.We1d a k) + ∑ a : Fin 64, e a * P.We1e a k) + P.be1 k) 0

/-- The edge message: `relu (h · We2 + be2)`. -/
def edgeMsg (P : Weights) (h : Fin 32 → EReal) (j : Fin 128) : EReal :=
  max ((∑ k : Fin 32, h k * P.We2 k j) + P.be2 j) 0

/-- The node encoder's hidden layer: `relu (d · Wn1d + em · Wn1m + bn1)`. -/
def hidden2 (P : Weights) (d em : Fin 128 → EReal) (k : Fin 64) : EReal :=
  max (((∑ a : Fin 128, d a * P.Wn1d a k) + ∑ a : Fin 128, em a * P.Wn1m a k) + P.bn1 k) 0

/-- The node message: `relu (h2 · Wn2 + bn2)`. -/
def nodeMsg (P : Weights) (h2 : Fin 64 → EReal) (j : Fin 128) : EReal :=
  max ((∑ k : Fin 64, h2 k * P.Wn2 k j) + P.bn2 j) 0

/-- The whole network on one edge's three rows. -/
def msg (P : Weights) (s d : Fin 128 → EReal) (e : Fin 64 → EReal) : Fin 128 → EReal :=
  nodeMsg P (hidden2 P d (edgeMsg P (hidden P s d e)))

/-! ## The network on every row of a table of edges -/

/-- Row `r` of an `R × C` table. -/
def row {R C : ℕ} (X : (⟨2, ![R, C]⟩ : Shape).Idx → EReal) (r : Fin R) : Fin C → EReal := fun a => X (ix2 r a)

/-- The node messages of `R` edges: entry `(r, j)` is the network on row `r` of the three tables, read at `j`. -/
def table {R : ℕ} (P : Weights) (S D : (⟨2, ![R, 128]⟩ : Shape).Idx → EReal) (E : (⟨2, ![R, 64]⟩ : Shape).Idx → EReal) :
    (⟨2, ![R, 128]⟩ : Shape).Idx → EReal :=
  fun i => msg P (row S (i 0)) (row D (i 0)) (row E (i 0)) (i 1)

theorem table_ix2 {R : ℕ} (P : Weights) (S D : (⟨2, ![R, 128]⟩ : Shape).Idx → EReal) (E : (⟨2, ![R, 64]⟩ : Shape).Idx → EReal)
    (r : Fin R) (j : Fin 128) : table P S D E (ix2 r j) = msg P (row S r) (row D r) (row E r) j := rfl

end Cert.EdgeNet

end
-- ==== Proof.KernelRow.lean ====
/-
  What one grid point of the kernel stores, entry by entry.

  The body loads a block of 4000 source rows, 4000 destination rows and 4000 edge rows together with the eleven weight
  arrays, and stores one 4000 × 128 block. Over the extended reals, where a change of float format is the identity,
  entry `(p, q)` of the stored block is the edge network of `EdgeNet` applied to row `p` of the three row blocks, read at
  `q`: each of the five matrix products is a plain sum (`KernelProducts`), each bias is one row laid over all 4000,
  and each ReLU is a maximum with zero.
-/
import proofs.«163053_j33835752358328_2_alg».proof.Proof.Gen.KernelIdeal.Skeleton
import proofs.«163053_j33835752358328_2_alg».proof.Proof.KernelProducts
import proofs.«163053_j33835752358328_2_alg».proof.Proof.EdgeNet
import Idealize.ShloMosaic.Lib.Pipeline.Value
import Idealize.ShloMosaic.Lib.ValueLayout

noncomputable section

namespace Cert.KernelIdeal.Row

open Cert.KernelIdeal Cert.KernelIdeal.Gen Cert.KernelIdeal.Products Cert.EdgeNet
open Idealize.ShloMosaic Idealize.ShloMosaic.ValueIdx

/-- The weights as the body loads them: eleven whole arrays. -/
def blockWeights (x3 x4 : Vec Ideal S128x32 .f32) (x5 : Vec Ideal S64x32 .f32) (x6 : Vec Ideal S32 .f32)
    (x7 : Vec Ideal S32x128 .f32) (x8 : Vec Ideal S128 .f32) (x9 x10 : Vec Ideal S128x64 .f32) (x11 : Vec Ideal S64 .f32)
    (x12 : Vec Ideal S64x128 .f32) (x13 : Vec Ideal S128 .f32) : Weights where
  We1s a k := x3 (ix2 a k)
  We1d a k := x4 (ix2 a k)
  We1e a k := x5 (ix2 a k)
  be1 k := x6 (ix1 k)
  We2 k j := x7 (ix2 k j)
  be2 j := x8 (ix1 j)
  Wn1d a k := x9 (ix2 a k)
  Wn1m a k := x10 (ix2 a k)
  bn1 k := x11 (ix1 k)
  Wn2 k j := x12 (ix2 k j)
  bn2 j := x13 (ix1 j)

/-- The float word of zero is the number zero. -/
theorem zero_word : Scalar.ofBits (F := Ideal) .f32 0x00000000#32 = (0 : EReal) := Ideal.ofBits_zero_f32

/-- A bias vector of `C` numbers, made a `1 × C` row and laid over `R` rows, reads at `(p, k)` its `k`-th number. -/
theorem bias_entry {R C : ℕ} (b : (⟨1, ![C]⟩ : Shape).Idx → EReal) (h1 : (⟨1, ![C]⟩ : Shape).ShapeCasts ⟨2, ![1, C]⟩)
    (h2 : (⟨2, ![1, C]⟩ : Shape).Broadcasts ⟨2, ![R, C]⟩) (p : Fin R) (k : Fin C) :
    broadcastTo ⟨2, ![R, C]⟩ (shapeCast ⟨2, ![1, C]⟩ b h1) h2 (ix2 p k) = b (ix1 k) :=
  (broadcastTo_1b_ab_apply _ h2 p k).trans (shapeCast_a_1a_apply b h1 0 k)

/-- The destination block on its way into a product: unchanged. -/
theorem pay2_entry (x1 : Vec Ideal S4000x128 .f32) (i : S4000x128.Idx) : k0_pay2 x1 i = x1 i :=
  congrFun (shapeCast_self x1 _) i

/-- The edge message before its ReLU, at `(p, j)`. -/
theorem pay3_entry (x0 x1 : Vec Ideal S4000x128 .f32) (x2 : Vec Ideal S4000x64 .f32) (x3 x4 : Vec Ideal S128x32 .f32)
    (x5 : Vec Ideal S64x32 .f32) (x6 : Vec Ideal S32 .f32) (x7 : Vec Ideal S32x128 .f32) (x8 : Vec Ideal S128 .f32)
    (p : Fin 4000) (j : Fin 128) :
    k0_pay3 x0 x1 x2 x3 x4 x5 x6 x7 x8 (ix2 p j)
      = (∑ k : Fin 32,
          max ((((∑ a : Fin 128, x0 (ix2 p a) * x3 (ix2 a k)) + ∑ a : Fin 128, x1 (ix2 p a) * x4 (ix2 a k))
              + ∑ a : Fin 64, x2 (ix2 p a) * x5 (ix2 a k)) + x6 (ix1 k)) 0 * x7 (ix2 k j)) + x8 (ix1 j) := by
  unfold k0_pay3
  simp only [addf_apply, maximumf_apply, truncf_apply, broadcast_apply, matmul_a128x32, matmul_a64x32, matmul_a32x128,
    shapeCast_self, pay2_entry, bias_entry, zero_word]

/-- The stored value at `(p, q)` from the destination block, the edge message before its ReLU and the node encoder's
    weights. -/
theorem pay1_entry (v5 : FVec Ideal S4000x128 .bf16) (v35 : FVec Ideal S4000x128 .f32) (x9 x10 : Vec Ideal S128x64 .f32)
    (x11 : Vec Ideal S64 .f32) (x12 : Vec Ideal S64x128 .f32) (x13 : Vec Ideal S128 .f32) (p : Fin 4000) (q : Fin 128) :
    k0_pay1 v5 v35 (k0_pay4 (F := Ideal)) x9 x10 x11 x12 x13 (ix2 p q)
      = max ((∑ k : Fin 64,
          max (((∑ a : Fin 128, v5 (ix2 p a) * x9 (ix2 a k)) + ∑ a : Fin 128, max (v35 (ix2 p a)) 0 * x10 (ix2 a k))
              + x11 (ix1 k)) 0 * x12 (ix2 k q)) + x13 (ix1 q)) 0 := by
  unfold k0_pay1 k0_pay4
  simp only [addf_apply, maximumf_apply, truncf_apply, broadcast_apply, matmul_a128x64, matmul_a64x128,
    shapeCast_self, bias_entry, zero_word]

/-- THE STORED BLOCK, entry `(p, q)`: the edge network on row `p` of the source, destination and edge blocks, with the
    weights as loaded, read at `q`. -/
theorem stored_entry (x0 x1 : Vec Ideal S4000x128 .f32) (x2 : Vec Ideal S4000x64 .f32) (x3 x4 : Vec Ideal S128x32 .f32)
    (x5 : Vec Ideal S64x32 .f32) (x6 : Vec Ideal S32 .f32) (x7 : Vec Ideal S32x128 .f32) (x8 : Vec Ideal S128 .f32)
    (x9 x10 : Vec Ideal S128x64 .f32) (x11 : Vec Ideal S64 .f32) (x12 : Vec Ideal S64x128 .f32) (x13 : Vec Ideal S128 .f32)
    (p : Fin 4000) (q : Fin 128) :
    k0_pay1 (k0_pay2 x1) (k0_pay3 x0 x1 x2 x3 x4 x5 x6 x7 x8) (k0_pay4 (F := Ideal)) x9 x10 x11 x12 x13 (ix2 p q)
      = msg (blockWeights x3 x4 x5 x6 x7 x8 x9 x10 x11 x12 x13) (row x0 p) (row x1 p) (row x2 p) q := by
  rw [pay1_entry]
  simp only [pay2_entry, pay3_entry]
  rfl

end Cert.KernelIdeal.Row

end
-- ==== Proof.KernelTable.lean ====
/-
  From the blocks the grid points write to the whole table of node messages.

  The grid has 150 points. Point `t` reads rows `4000 t … 4000 t + 3999` of the gathered source rows, of the gathered
  destination rows and of the edge rows, reads every weight array whole, and writes rows `4000 t … 4000 t + 3999` of
  the output. What it writes is (`KernelRow`) the edge network on each of those rows; so the block it writes back is
  the block of ONE table — the edge network on every row of the three 600000-row tables — and since the 150 blocks
  cover all 600000 rows, the output array ends holding that table.
-/
import proofs.«163053_j33835752358328_2_alg».proof.Proof.Gen.KernelIdeal.Frame
import proofs.«163053_j33835752358328_2_alg».proof.Proof.KernelRow

set_option maxRecDepth 16384

noncomputable section

namespace Cert.KernelIdeal.Table

open Cert.KernelIdeal Cert.KernelIdeal.Gen Cert.KernelIdeal.Row Cert.EdgeNet
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ)

theorem hz2 : (![0, 0] : Fin 2 → Nat) = fun _ => 0 := funext fun a => by fin_cases a <;> rfl
theorem hz1 : (![0] : Fin 1 → Nat) = fun _ => 0 := funext fun a => by fin_cases a; rfl

/-! ## The index maps, decided over the 150 grid points -/

/-- The three row windows and the output window sit at block `t` of the rows and block 0 of the columns. -/
theorem idx_rows : ∀ t : Fin cfg0.N,
    win0_14.index t (0 : Fin 2) = t.val ∧ win0_14.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every weight window sits at block 0 on every axis. -/
theorem idx_weights : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 1) = 0
    ∧ win0_12.index t (0 : Fin 2) = 0 ∧ win0_12.index t (1 : Fin 2) = 0
    ∧ win0_13.index t (0 : Fin 1) = 0 :=
  (by decide +kernel : ∀ t : Fin grid0.N, _)

/-! ## The arrays as the region finds them -/

/-- The gathered source rows. -/
abbrev srcRows (c : Dev nD) : S600000x128.Idx → EReal := V m c main_v10
/-- The gathered destination rows. -/
abbrev dstRows (c : Dev nD) : S600000x128.Idx → EReal := V m c main_v17
/-- The edge rows. -/
abbrev edgeRows (c : Dev nD) : S600000x64.Idx → EReal := V m c main_arg1

/-- The weights the region finds: the row blocks of the two first-layer matrices are separate arrays here. -/
def kernelWeights (c : Dev nD) : Weights :=
  blockWeights (V m c main_v18) (V m c main_v19) (V m c main_v20) (V m c main_arg4) (V m c main_arg5) (V m c main_arg6)
    (V m c main_v21) (V m c main_v22) (V m c main_arg8) (V m c main_arg9) (V m c main_arg10)

/-- THE TABLE: the edge network on every row of the three tables the region finds. -/
def nodeTable (c : Dev nD) : S600000x128.Idx → EReal :=
  table (kernelWeights m c) (srcRows m c) (dstRows m c) (edgeRows m c)

/-! ## The blocks a grid point reads -/

/-- Window 3 is a whole array at every grid point. -/
theorem whole_3 (c : Dev nD) (t : Fin cfg0.N) : (iblk m c 3 t : Vec Ideal S128x32 .f32) = V m c main_v18 := by
  have hf := idx_weights t
  funext y
  unfold iblk
  rw [View.read_apply]
  show V m c main_v18 _ = V m c main_v18 _
  congr 1
  funext ax
  apply Fin.ext
  match ax with
  | ⟨0, _⟩ => show win0_3.index t (0 : Fin 2) * 128 + 1 * (y 0).val = (y 0).val; omega
  | ⟨1, _⟩ => show win0_3.index t (1 : Fin 2) * 32 + 1 * (y 1).val = (y 1).val; omega

/-- Window 4 is a whole array at every grid point. -/
theorem whole_4 (c : Dev nD) (t : Fin cfg0.N) : (iblk m c 4 t : Vec Ideal S128x32 .f32) = V m c main_v19 := by
  have hf := idx_weights t
  funext y
  unfold iblk
  rw [View.read_apply]
  show V m c main_v19 _ = V m c main_v19 _
  congr 1
  funext ax
  apply Fin.ext
  match ax with
  | ⟨0, _⟩ => show win0_4.index t (0 : Fin 2) * 128 + 1 * (y 0).val = (y 0).val; omega
  | ⟨1, _⟩ => show win0_4.index t (1 : Fin 2) * 32 + 1 * (y 1).val = (y 1).val; omega

/-- Window 5 is a whole array at every grid point. -/
theorem whole_5 (c : Dev nD) (t : Fin cfg0.N) : (iblk m c 5 t : Vec Ideal S64x32 .f32) = V m c main_v20 := by
  have hf := idx_weights t
  funext y
  unfold iblk
  rw [View.read_apply]
  show V m c main_v20 _ = V m c main_v20 _
  congr 1
  funext ax
  apply Fin.ext
  match ax with
  | ⟨0, _⟩ => show win0_5.index t (0 : Fin 2) * 64 + 1 * (y 0).val = (y 0).val; omega
  | ⟨1, _⟩ => show win0_5.index t (1 : Fin 2) * 32 + 1 * (y 1).val = (y 1).val; omega

/-- Window 6 is a whole array at every grid point. -/
theorem whole_6 (c : Dev nD) (t : Fin cfg0.N) : (iblk m c 6 t : Vec Ideal S32 .f32) = V m c main_arg4 := by
  have hf := idx_weights t
  funext y
  unfold iblk
  rw [View.read_apply]
  show V m c main_arg4 _ = V m c main_arg4 _
  congr 1
  funext ax
  apply Fin.ext
  match ax with
  | ⟨0, _⟩ => show win0_6.index t (0 : Fin 1) * 32 + 1 * (y 0).val = (y 0).val; omega

/-- Window 7 is a whole array at every grid point. -/
theorem whole_7 (c : Dev nD) (t : Fin cfg0.N) : (iblk m c 7 t : Vec Ideal S32x128 .f32) = V m c main_arg5 := by
  have hf := idx_weights t
  funext y
  unfold iblk
  rw [View.read_apply]
  show V m c main_arg5 _ = V m c main_arg5 _
  congr 1
  funext ax
  apply Fin.ext
  match ax with
  | ⟨0, _⟩ => show win0_7.index t (0 : Fin 2) * 32 + 1 * (y 0).val = (y 0).val; omega
  | ⟨1, _⟩ => show win0_7.index t (1 : Fin 2) * 128 + 1 * (y 1).val = (y 1).val; omega

/-- Window 8 is a whole array at every grid point. -/
theorem whole_8 (c : Dev nD) (t : Fin cfg0.N) : (iblk m c 8 t : Vec Ideal S128 .f32) = V m c main_arg6 := by
  have hf := idx_weights t
  funext y
  unfold iblk
  rw [View.read_apply]
  show V m c main_arg6 _ = V m c main_arg6 _
  congr 1
  funext ax
  apply Fin.ext
  match ax with
  | ⟨0, _⟩ => show win0_8.index t (0 : Fin 1) * 128 + 1 * (y 0).val = (y 0).val; omega

/-- Window 9 is a whole array at every grid point. -/
theorem whole_9 (c : Dev nD) (t : Fin cfg0.N) : (iblk m c 9 t : Vec Ideal S128x64 .f32) = V m c main_v21 := by
  have hf := idx_weights t
  funext y
  unfold iblk
  rw [View.read_apply]
  show V m c main_v21 _ = V m c main_v21 _
  congr 1
  funext ax
  apply Fin.ext
  match ax with
  | ⟨0, _⟩ => show win0_9.index t (0 : Fin 2) * 128 + 1 * (y 0).val = (y 0).val; omega
  | ⟨1, _⟩ => show win0_9.index t (1 : Fin 2) * 64 + 1 * (y 1).val = (y 1).val; omega

/-- Window 10 is a whole array at every grid point. -/
theorem whole_10 (c : Dev nD) (t : Fin cfg0.N) : (iblk m c 10 t : Vec Ideal S128x64 .f32) = V m c main_v22 := by
  have hf := idx_weights t
  funext y
  unfold iblk
  rw [View.read_apply]
  show V m c main_v22 _ = V m c main_v22 _
  congr 1
  funext ax
  apply Fin.ext
  match ax with
  | ⟨0, _⟩ => show win0_10.index t (0 : Fin 2) * 128 + 1 * (y 0).val = (y 0).val; omega
  | ⟨1, _⟩ => show win0_10.index t (1 : Fin 2) * 64 + 1 * (y 1).val = (y 1).val; omega

/-- Window 11 is a whole array at every grid point. -/
theorem whole_11 (c : Dev nD) (t : Fin cfg0.N) : (iblk m c 11 t : Vec Ideal S64 .f32) = V m c main_arg8 := by
  have hf := idx_weights t
  funext y
  unfold iblk
  rw [View.read_apply]
  show V m c main_arg8 _ = V m c main_arg8 _
  congr 1
  funext ax
  apply Fin.ext
  match ax with
  | ⟨0, _⟩ => show win0_11.index t (0 : Fin 1) * 64 + 1 * (y 0).val = (y 0).val; omega

/-- Window 12 is a whole array at every grid point. -/
theorem whole_12 (c : Dev nD) (t : Fin cfg0.N) : (iblk m c 12 t : Vec Ideal S64x128 .f32) = V m c main_arg9 := by
  have hf := idx_weights t
  funext y
  unfold iblk
  rw [View.read_apply]
  show V m c main_arg9 _ = V m c main_arg9 _
  congr 1
  funext ax
  apply Fin.ext
  match ax with
  | ⟨0, _⟩ => show win0_12.index t (0 : Fin 2) * 64 + 1 * (y 0).val = (y 0).val; omega
  | ⟨1, _⟩ => show win0_12.index t (1 : Fin 2) * 128 + 1 * (y 1).val = (y 1).val; omega

/-- Window 13 is a whole array at every grid point. -/
theorem whole_13 (c : Dev nD) (t : Fin cfg0.N) : (iblk m c 13 t : Vec Ideal S128 .f32) = V m c main_arg10 := by
  have hf := idx_weights t
  funext y
  unfold iblk
  rw [View.read_apply]
  show V m c main_arg10 _ = V m c main_arg10 _
  congr 1
  funext ax
  apply Fin.ext
  match ax with
  | ⟨0, _⟩ => show win0_13.index t (0 : Fin 1) * 128 + 1 * (y 0).val = (y 0).val; omega

/-- The weights a grid point loads are the weights the region finds. -/
theorem weights_at (c : Dev nD) (t : Fin cfg0.N) :
    blockWeights (iblk m c 3 t) (iblk m c 4 t) (iblk m c 5 t) (iblk m c 6 t) (iblk m c 7 t) (iblk m c 8 t)
      (iblk m c 9 t) (iblk m c 10 t) (iblk m c 11 t) (iblk m c 12 t) (iblk m c 13 t) = kernelWeights m c := by
  unfold kernelWeights
  rw [whole_3 m c t, whole_4 m c t, whole_5 m c t, whole_6 m c t, whole_7 m c t, whole_8 m c t, whole_9 m c t,
    whole_10 m c t, whole_11 m c t, whole_12 m c t, whole_13 m c t]

/-- Row `p` of window 0's block at point `t` is row `4000 t + p` of the src table. -/
theorem src_row (c : Dev nD) (t : Fin cfg0.N) (p : Fin 4000) (r : Fin 600000) (hr : r.val = t.val * 4000 + p.val) :
    row (iblk m c 0 t : Vec Ideal S4000x128 .f32) p = row (srcRows m c) r := by
  have hf := idx_rows t
  funext a
  show (iblk m c 0 t : Vec Ideal S4000x128 .f32) (ix2 p a) = srcRows m c (ix2 r a)
  unfold iblk
  rw [View.read_apply]
  show V m c main_v10 _ = V m c main_v10 _
  congr 1
  funext ax
  apply Fin.ext
  match ax with
  | ⟨0, _⟩ => show win0_0.index t (0 : Fin 2) * 4000 + 1 * p.val = r.val; omega
  | ⟨1, _⟩ => show win0_0.index t (1 : Fin 2) * 128 + 1 * a.val = a.val; omega

/-- Row `p` of window 1's block at point `t` is row `4000 t + p` of the dst table. -/
theorem dst_row (c : Dev nD) (t : Fin cfg0.N) (p : Fin 4000) (r : Fin 600000) (hr : r.val = t.val * 4000 + p.val) :
    row (iblk m c 1 t : Vec Ideal S4000x128 .f32) p = row (dstRows m c) r := by
  have hf := idx_rows t
  funext a
  show (iblk m c 1 t : Vec Ideal S4000x128 .f32) (ix2 p a) = dstRows m c (ix2 r a)
  unfold iblk
  rw [View.read_apply]
  show V m c main_v17 _ = V m c main_v17 _
  congr 1
  funext ax
  apply Fin.ext
  match ax with
  | ⟨0, _⟩ => show win0_1.index t (0 : Fin 2) * 4000 + 1 * p.val = r.val; omega
  | ⟨1, _⟩ => show win0_1.index t (1 : Fin 2) * 128 + 1 * a.val = a.val; omega

/-- Row `p` of window 2's block at point `t` is row `4000 t + p` of the edge table. -/
theorem edge_row (c : Dev nD) (t : Fin cfg0.N) (p : Fin 4000) (r : Fin 600000) (hr : r.val = t.val * 4000 + p.val) :
    row (iblk m c 2 t : Vec Ideal S4000x64 .f32) p = row (edgeRows m c) r := by
  have hf := idx_rows t
  funext a
  show (iblk m c 2 t : Vec Ideal S4000x64 .f32) (ix2 p a) = edgeRows m c (ix2 r a)
  unfold iblk
  rw [View.read_apply]
  show V m c main_arg1 _ = V m c main_arg1 _
  congr 1
  funext ax
  apply Fin.ext
  match ax with
  | ⟨0, _⟩ => show win0_2.index t (0 : Fin 2) * 4000 + 1 * p.val = r.val; omega
  | ⟨1, _⟩ => show win0_2.index t (1 : Fin 2) * 64 + 1 * a.val = a.val; omega

/-! ## What a grid point writes back -/

/-- WHAT POINT `t` WRITES BACK is block `t` of the table. -/
theorem flushed_eq (c : Dev nD) (t : Fin cfg0.N) :
    (dats m 0 c).flushed 14 t = ((cfg0.win 14).blk t).view.read (Elt Ideal) (nodeTable m c) := by
  show (cfg0.win 14).cut (grid0.coords t) ((dats m 0 c).after 14 t) = _
  rw [after0_14]
  unfold out0_14
  rw [View.canon_unit_zero hz2]
  simp only [View.ld_unit_zero (S := S4000x128) hz2, View.ld_unit_zero (S := S4000x64) hz2,
    View.ld_unit_zero (S := S128x32) hz2, View.ld_unit_zero (S := S64x32) hz2, View.ld_unit_zero (S := S32) hz1,
    View.ld_unit_zero (S := S32x128) hz2, View.ld_unit_zero (S := S128) hz1, View.ld_unit_zero (S := S128x64) hz2,
    View.ld_unit_zero (S := S64) hz1, View.ld_unit_zero (S := S64x128) hz2]
  funext j
  show k0_pay1 (k0_pay2 (iblk m c 1 t)) (k0_pay3 (iblk m c 0 t) (iblk m c 1 t) (iblk m c 2 t) (iblk m c 3 t) (iblk m c 4 t)
      (iblk m c 5 t) (iblk m c 6 t) (iblk m c 7 t) (iblk m c 8 t)) (k0_pay4 (F := Ideal)) (iblk m c 9 t) (iblk m c 10 t)
      (iblk m c 11 t) (iblk m c 12 t) (iblk m c 13 t) j = nodeTable m c (((cfg0.win 14).blk t).view.emb j)
  obtain ⟨p, q, rfl⟩ : ∃ (p : Fin 4000) (q : Fin 128), j = ix2 p q := ⟨j 0, j 1, eq_ix2 j⟩
  refine (stored_entry (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) (iblk m c 12 t)
    (iblk m c 13 t) p q).trans ?_
  have hf := idx_rows t
  have hN : t.val < 150 := Nat.lt_of_lt_of_eq t.isLt N_0
  obtain ⟨r, hr⟩ : ∃ r : Fin 600000, r.val = t.val * 4000 + p.val :=
    ⟨⟨t.val * 4000 + p.val, by have := p.isLt; omega⟩, rfl⟩
  have hemb : ((cfg0.win 14).blk t).view.emb (ix2 p q) = ix2 r q := by
    funext ax
    apply Fin.ext
    match ax with
    | ⟨0, _⟩ => show win0_14.index t (0 : Fin 2) * 4000 + 1 * p.val = r.val; omega
    | ⟨1, _⟩ => show win0_14.index t (1 : Fin 2) * 128 + 1 * q.val = q.val; omega
  rw [hemb, weights_at m c t, src_row m c t p r hr, dst_row m c t p r hr, edge_row m c t p r hr]
  rfl

/-! ## The blocks cover the array -/

/-- An entry of the output array is in point `t`'s block iff each coordinate is in the block's range on its axis. -/
theorem mem_blk (t : Fin cfg0.N) (i : S600000x128.Idx) :
    i ∈ ((cfg0.win 14).blk t).view.set ↔ ∀ a : Fin 2, win0_14.index t a * S4000x128.size a ≤ (i a).val ∧ (i a).val < win0_14.index t a * S4000x128.size a + S4000x128.size a := by
  show i ∈ ((View.whole main_v23).slice (win0_14.rect t)).set ↔ _
  rw [View.set_slice_whole, Rect.mem_set_unit]
  exact Iff.rfl

/-- Row `r` is written by point `r / 4000`. -/
theorem cover (i : S600000x128.Idx) :
    ∃ t : Fin cfg0.N, (cfg0.win 14).flush t = true ∧ i ∈ ((cfg0.win 14).blk t).view.set := by
  have hi0 : (i 0).val < 600000 := (i 0).isLt
  have hi1 : (i 1).val < 128 := (i 1).isLt
  obtain ⟨t, ht⟩ : ∃ t : Fin cfg0.N, t.val = (i 0).val / 4000 :=
    ⟨⟨(i 0).val / 4000, by rw [show cfg0.N = 150 from N_0]; omega⟩, rfl⟩
  have hf := idx_rows t
  refine ⟨t, flush0_14 t, ?_⟩
  rw [mem_blk]
  intro a
  match a with
  | ⟨0, _⟩ => show win0_14.index t (0 : Fin 2) * 4000 ≤ (i 0).val ∧ (i 0).val < win0_14.index t (0 : Fin 2) * 4000 + 4000; omega
  | ⟨1, _⟩ => show win0_14.index t (1 : Fin 2) * 128 ≤ (i 1).val ∧ (i 1).val < win0_14.index t (1 : Fin 2) * 128 + 128; omega

/-- THE OUTPUT ARRAY after the region is the table. -/
theorem final (c : Dev nD) : (dats m 0 c).arrAt 14 cfg0.N = nodeTable m c :=
  (dats m 0 c).arrAt_eq_of_cover 14 (nodeTable m c) (fun t _ => flushed_eq m c t) (cover)

end Cert.KernelIdeal.Table

end
-- ==== Proof.RefRows.lean ====
/-
  The reference's node messages, entry by entry.

  The reference gathers the source rows and the destination rows, joins `[source | destination | edge]` into one
  600000 × 320 table and multiplies it by the whole 320 × 32 matrix; later it joins `[destination | edge message]`
  into a 600000 × 256 table and multiplies by the whole 256 × 64 matrix. Read at an entry, a product with a joined
  table is a sum over the joined axis; cut where the pieces meet (`EdgeNet.sum_split3`, `sum_split2`) it is the sum of
  one shorter product per piece, each with the block of the matrix whose rows face that piece. So every entry of the
  reference's node-message table is the edge network of `EdgeNet` on that edge's three rows, with the weight blocks
  read out of the uncut matrices.
-/
import proofs.«163053_j33835752358328_2_alg».proof.Proof.Gen.ReferenceIdeal.Read
import proofs.«163053_j33835752358328_2_alg».proof.Proof.EdgeNet

noncomputable section

namespace Cert.ReferenceIdeal.Rows

open Cert.ReferenceIdeal Cert.ReferenceIdeal.Read Cert.EdgeNet
open Idealize.ShloMosaic Idealize.ShloMosaic.ValueIdx

/-- The weights as the reference holds them: the two first-layer matrices uncut, their row blocks named by where
    the rows start (0, 128, 256). -/
def refWeights (x3 : (⟨S320x32, .f32⟩ : BufTy).Contents (Elt Ideal)) (x4 : (⟨S32, .f32⟩ : BufTy).Contents (Elt Ideal)) (x5 : (⟨S32x128, .f32⟩ : BufTy).Contents (Elt Ideal)) (x6 : (⟨S128, .f32⟩ : BufTy).Contents (Elt Ideal))
    (x7 : (⟨S256x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) : Weights where
  We1s a k := x3 (ix2 (⟨a.val, by omega⟩ : Fin 320) k)
  We1d a k := x3 (ix2 (⟨128 + a.val, by omega⟩ : Fin 320) k)
  We1e a k := x3 (ix2 (⟨256 + a.val, by omega⟩ : Fin 320) k)
  be1 k := x4 (ix1 k)
  We2 k j := x5 (ix2 k j)
  be2 j := x6 (ix1 j)
  Wn1d a k := x7 (ix2 (⟨a.val, by omega⟩ : Fin 256) k)
  Wn1m a k := x7 (ix2 (⟨128 + a.val, by omega⟩ : Fin 256) k)
  bn1 k := x8 (ix1 k)
  Wn2 k j := x9 (ix2 k j)
  bn2 j := x10 (ix1 j)

/-! ## The joined tables, read piece by piece -/

/-- Columns 0–127 of `[source | destination | edge]` are the source rows. -/
theorem join3_source (x0 : (⟨S50000x128, .f32⟩ : BufTy).Contents (Elt Ideal)) (x1 : (⟨S600000x64, .f32⟩ : BufTy).Contents (Elt Ideal)) (x2 : (⟨S2x600000, .i32⟩ : BufTy).Contents (Elt Ideal)) (r : Fin 600000) (a : Fin 128) :
    val_main_v18 (F := Ideal) x0 x1 x2 (ix2 r (⟨a.val, by omega⟩ : Fin 320)) = val_main_v10 (F := Ideal) x0 x2 (ix2 r a) := by
  unfold val_main_v18
  generalize val_main_v10 (F := Ideal) x0 x2 = y0
  generalize val_main_v17 (F := Ideal) x0 x2 = y1
  exact concatenate_apply_piece (1 : Fin S600000x320.rank) _ _ _
    0 (by show (0 : ℕ) < _; simp) S600000x128 y0 rfl rfl 0 rfl (ix2 r a)
    (fun b hb => by match b with | ⟨0, _⟩ => rfl | ⟨1, _⟩ => exact absurd rfl hb)
    (by show 0 + a.val = a.val; omega)

/-- Columns 128–255 are the destination rows. -/
theorem join3_dest (x0 : (⟨S50000x128, .f32⟩ : BufTy).Contents (Elt Ideal)) (x1 : (⟨S600000x64, .f32⟩ : BufTy).Contents (Elt Ideal)) (x2 : (⟨S2x600000, .i32⟩ : BufTy).Contents (Elt Ideal)) (r : Fin 600000) (a : Fin 128) :
    val_main_v18 (F := Ideal) x0 x1 x2 (ix2 r (⟨128 + a.val, by omega⟩ : Fin 320)) = val_main_v17 (F := Ideal) x0 x2 (ix2 r a) := by
  unfold val_main_v18
  generalize val_main_v10 (F := Ideal) x0 x2 = y0
  generalize val_main_v17 (F := Ideal) x0 x2 = y1
  exact concatenate_apply_piece (1 : Fin S600000x320.rank) _ _ _
    1 (by show (1 : ℕ) < _; simp) S600000x128 y1 rfl rfl 128 rfl (ix2 r a)
    (fun b hb => by match b with | ⟨0, _⟩ => rfl | ⟨1, _⟩ => exact absurd rfl hb)
    (by show 128 + a.val = 128 + a.val; rfl)

/-- Columns 256–319 are the edge rows. -/
theorem join3_edge (x0 : (⟨S50000x128, .f32⟩ : BufTy).Contents (Elt Ideal)) (x1 : (⟨S600000x64, .f32⟩ : BufTy).Contents (Elt Ideal)) (x2 : (⟨S2x600000, .i32⟩ : BufTy).Contents (Elt Ideal)) (r : Fin 600000) (a : Fin 64) :
    val_main_v18 (F := Ideal) x0 x1 x2 (ix2 r (⟨256 + a.val, by omega⟩ : Fin 320)) = x1 (ix2 r a) := by
  unfold val_main_v18
  generalize val_main_v10 (F := Ideal) x0 x2 = y0
  generalize val_main_v17 (F := Ideal) x0 x2 = y1
  exact concatenate_apply_piece (1 : Fin S600000x320.rank) _ _ _
    2 (by show (2 : ℕ) < _; simp) S600000x64 x1 rfl rfl 256 rfl (ix2 r a)
    (fun b hb => by match b with | ⟨0, _⟩ => rfl | ⟨1, _⟩ => exact absurd rfl hb)
    (by show 256 + a.val = 256 + a.val; rfl)

/-- Columns 0–127 of `[destination | edge message]` are the destination rows. -/
theorem join2_dest (x0 : (⟨S50000x128, .f32⟩ : BufTy).Contents (Elt Ideal)) (x1 : (⟨S600000x64, .f32⟩ : BufTy).Contents (Elt Ideal)) (x2 : (⟨S2x600000, .i32⟩ : BufTy).Contents (Elt Ideal)) (x3 : (⟨S320x32, .f32⟩ : BufTy).Contents (Elt Ideal)) (x4 : (⟨S32, .f32⟩ : BufTy).Contents (Elt Ideal)) (x5 : (⟨S32x128, .f32⟩ : BufTy).Contents (Elt Ideal)) (x6 : (⟨S128, .f32⟩ : BufTy).Contents (Elt Ideal)) (r : Fin 600000) (a : Fin 128) :
    val_main_v29 (F := Ideal) x0 x1 x2 x3 x4 x5 x6 (ix2 r (⟨a.val, by omega⟩ : Fin 256)) = val_main_v17 (F := Ideal) x0 x2 (ix2 r a) := by
  unfold val_main_v29
  generalize val_main_v17 (F := Ideal) x0 x2 = y0
  generalize val_main_v28 (F := Ideal) x0 x1 x2 x3 x4 x5 x6 = y1
  exact concatenate_apply_piece (1 : Fin S600000x256.rank) _ _ _
    0 (by show (0 : ℕ) < _; simp) S600000x128 y0 rfl rfl 0 rfl (ix2 r a)
    (fun b hb => by match b with | ⟨0, _⟩ => rfl | ⟨1, _⟩ => exact absurd rfl hb)
    (by show 0 + a.val = a.val; omega)

/-- Columns 128–255 are the edge messages. -/
theorem join2_msg (x0 : (⟨S50000x128, .f32⟩ : BufTy).Contents (Elt Ideal)) (x1 : (⟨S600000x64, .f32⟩ : BufTy).Contents (Elt Ideal)) (x2 : (⟨S2x600000, .i32⟩ : BufTy).Contents (Elt Ideal)) (x3 : (⟨S320x32, .f32⟩ : BufTy).Contents (Elt Ideal)) (x4 : (⟨S32, .f32⟩ : BufTy).Contents (Elt Ideal)) (x5 : (⟨S32x128, .f32⟩ : BufTy).Contents (Elt Ideal)) (x6 : (⟨S128, .f32⟩ : BufTy).Contents (Elt Ideal)) (r : Fin 600000) (a : Fin 128) :
    val_main_v29 (F := Ideal) x0 x1 x2 x3 x4 x5 x6 (ix2 r (⟨128 + a.val, by omega⟩ : Fin 256)) = val_main_v28 (F := Ideal) x0 x1 x2 x3 x4 x5 x6 (ix2 r a) := by
  unfold val_main_v29
  generalize val_main_v17 (F := Ideal) x0 x2 = y0
  generalize val_main_v28 (F := Ideal) x0 x1 x2 x3 x4 x5 x6 = y1
  exact concatenate_apply_piece (1 : Fin S600000x256.rank) _ _ _
    1 (by show (1 : ℕ) < _; simp) S600000x128 y1 rfl rfl 128 rfl (ix2 r a)
    (fun b hb => by match b with | ⟨0, _⟩ => rfl | ⟨1, _⟩ => exact absurd rfl hb)
    (by show 128 + a.val = 128 + a.val; rfl)

/-! ## Where each operation reads its operands -/

theorem lidx19 (r : Fin 600000) (k : Fin 32) (a : Fin 320) : lidx_main_v19 (ix2 r k) a = ix2 r a :=
  funext fun d => Fin.ext (by match d with | ⟨0, _⟩ => rfl | ⟨1, _⟩ => rfl)
theorem ridx19 (r : Fin 600000) (k : Fin 32) (a : Fin 320) : ridx_main_v19 (ix2 r k) a = ix2 a k :=
  funext fun d => Fin.ext (by match d with | ⟨0, _⟩ => rfl | ⟨1, _⟩ => rfl)
theorem lidx24 (r : Fin 600000) (j : Fin 128) (k : Fin 32) : lidx_main_v24 (ix2 r j) k = ix2 r k :=
  funext fun d => Fin.ext (by match d with | ⟨0, _⟩ => rfl | ⟨1, _⟩ => rfl)
theorem ridx24 (r : Fin 600000) (j : Fin 128) (k : Fin 32) : ridx_main_v24 (ix2 r j) k = ix2 k j :=
  funext fun d => Fin.ext (by match d with | ⟨0, _⟩ => rfl | ⟨1, _⟩ => rfl)
theorem lidx30 (r : Fin 600000) (k : Fin 64) (a : Fin 256) : lidx_main_v30 (ix2 r k) a = ix2 r a :=
  funext fun d => Fin.ext (by match d with | ⟨0, _⟩ => rfl | ⟨1, _⟩ => rfl)
theorem ridx30 (r : Fin 600000) (k : Fin 64) (a : Fin 256) : ridx_main_v30 (ix2 r k) a = ix2 a k :=
  funext fun d => Fin.ext (by match d with | ⟨0, _⟩ => rfl | ⟨1, _⟩ => rfl)
theorem lidx35 (r : Fin 600000) (j : Fin 128) (k : Fin 64) : lidx_main_v35 (ix2 r j) k = ix2 r k :=
  funext fun d => Fin.ext (by match d with | ⟨0, _⟩ => rfl | ⟨1, _⟩ => rfl)
theorem ridx35 (r : Fin 600000) (j : Fin 128) (k : Fin 64) : ridx_main_v35 (ix2 r j) k = ix2 k j :=
  funext fun d => Fin.ext (by match d with | ⟨0, _⟩ => rfl | ⟨1, _⟩ => rfl)

/-- A bias laid over the 600000 rows reads, at `(r, k)`, its `k`-th number. -/
theorem bias21 (x4 : (⟨S32, .f32⟩ : BufTy).Contents (Elt Ideal)) (r : Fin 600000) (k : Fin 32) : val_main_v21 (F := Ideal) x4 (ix2 r k) = x4 (ix1 k) := by
  rw [val_main_v21_apply, val_main_v20_apply]
  exact congrArg x4 (funext fun d => Fin.ext (by match d with | ⟨0, _⟩ => rfl))
theorem bias26 (x6 : (⟨S128, .f32⟩ : BufTy).Contents (Elt Ideal)) (r : Fin 600000) (j : Fin 128) : val_main_v26 (F := Ideal) x6 (ix2 r j) = x6 (ix1 j) := by
  rw [val_main_v26_apply, val_main_v25_apply]
  exact congrArg x6 (funext fun d => Fin.ext (by match d with | ⟨0, _⟩ => rfl))
theorem bias32 (x8 : (⟨S64, .f32⟩ : BufTy).Contents (Elt Ideal)) (r : Fin 600000) (k : Fin 64) : val_main_v32 (F := Ideal) x8 (ix2 r k) = x8 (ix1 k) := by
  rw [val_main_v32_apply, val_main_v31_apply]
  exact congrArg x8 (funext fun d => Fin.ext (by match d with | ⟨0, _⟩ => rfl))
theorem bias37 (x10 : (⟨S128, .f32⟩ : BufTy).Contents (Elt Ideal)) (r : Fin 600000) (j : Fin 128) : val_main_v37 (F := Ideal) x10 (ix2 r j) = x10 (ix1 j) := by
  rw [val_main_v37_apply, val_main_v36_apply]
  exact congrArg x10 (funext fun d => Fin.ext (by match d with | ⟨0, _⟩ => rfl))

/-- Each ReLU's threshold is the number zero. -/
theorem zero0 (i : S600000x32.Idx) : val_main_call0_v0 (F := Ideal) i = (0 : EReal) := by
  rw [val_main_call0_v0_apply, val_main_call0_cst_apply]; exact Ideal.ofBits_zero_f32
theorem zero1 (i : S600000x128.Idx) : val_main_call1_v0 (F := Ideal) i = (0 : EReal) := by
  rw [val_main_call1_v0_apply, val_main_call1_cst_apply]; exact Ideal.ofBits_zero_f32
theorem zero2 (i : S600000x64.Idx) : val_main_call2_v0 (F := Ideal) i = (0 : EReal) := by
  rw [val_main_call2_v0_apply, val_main_call2_cst_apply]; exact Ideal.ofBits_zero_f32
theorem zero3 (i : S600000x128.Idx) : val_main_call3_v0 (F := Ideal) i = (0 : EReal) := by
  rw [val_main_call3_v0_apply, val_main_call3_cst_apply]; exact Ideal.ofBits_zero_f32

/-! ## The four layers -/

/-- The edge encoder's hidden layer, at `(r, k)`. -/
theorem hidden_entry (x0 : (⟨S50000x128, .f32⟩ : BufTy).Contents (Elt Ideal)) (x1 : (⟨S600000x64, .f32⟩ : BufTy).Contents (Elt Ideal)) (x2 : (⟨S2x600000, .i32⟩ : BufTy).Contents (Elt Ideal)) (x3 : (⟨S320x32, .f32⟩ : BufTy).Contents (Elt Ideal)) (x4 : (⟨S32, .f32⟩ : BufTy).Contents (Elt Ideal)) (x5 : (⟨S32x128, .f32⟩ : BufTy).Contents (Elt Ideal)) (x6 : (⟨S128, .f32⟩ : BufTy).Contents (Elt Ideal)) (x7 : (⟨S256x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (r : Fin 600000) (k : Fin 32) :
    val_main_v23 (F := Ideal) x0 x1 x2 x3 x4 (ix2 r k)
      = hidden (refWeights x3 x4 x5 x6 x7 x8 x9 x10) (row (val_main_v10 (F := Ideal) x0 x2) r) (row (val_main_v17 (F := Ideal) x0 x2) r) (row x1 r) k := by
  rw [val_main_v23_apply, val_main_v22_apply, val_main_v19_apply, zero0, bias21]
  simp only [lidx19, ridx19]
  rw [sum_split3]
  simp only [join3_source, join3_dest, join3_edge]
  rfl

/-- The edge message, at `(r, j)`. -/
theorem edgeMsg_entry (x0 : (⟨S50000x128, .f32⟩ : BufTy).Contents (Elt Ideal)) (x1 : (⟨S600000x64, .f32⟩ : BufTy).Contents (Elt Ideal)) (x2 : (⟨S2x600000, .i32⟩ : BufTy).Contents (Elt Ideal)) (x3 : (⟨S320x32, .f32⟩ : BufTy).Contents (Elt Ideal)) (x4 : (⟨S32, .f32⟩ : BufTy).Contents (Elt Ideal)) (x5 : (⟨S32x128, .f32⟩ : BufTy).Contents (Elt Ideal)) (x6 : (⟨S128, .f32⟩ : BufTy).Contents (Elt Ideal)) (x7 : (⟨S256x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (r : Fin 600000) (j : Fin 128) :
    val_main_v28 (F := Ideal) x0 x1 x2 x3 x4 x5 x6 (ix2 r j)
      = edgeMsg (refWeights x3 x4 x5 x6 x7 x8 x9 x10) (hidden (refWeights x3 x4 x5 x6 x7 x8 x9 x10) (row (val_main_v10 (F := Ideal) x0 x2) r) (row (val_main_v17 (F := Ideal) x0 x2) r) (row x1 r)) j := by
  rw [val_main_v28_apply, val_main_v27_apply, val_main_v24_apply, zero1, bias26]
  simp only [lidx24, ridx24, hidden_entry x0 x1 x2 x3 x4 x5 x6 x7 x8 x9 x10]
  rfl

/-- The node encoder's hidden layer, at `(r, k)`. -/
theorem hidden2_entry (x0 : (⟨S50000x128, .f32⟩ : BufTy).Contents (Elt Ideal)) (x1 : (⟨S600000x64, .f32⟩ : BufTy).Contents (Elt Ideal)) (x2 : (⟨S2x600000, .i32⟩ : BufTy).Contents (Elt Ideal)) (x3 : (⟨S320x32, .f32⟩ : BufTy).Contents (Elt Ideal)) (x4 : (⟨S32, .f32⟩ : BufTy).Contents (Elt Ideal)) (x5 : (⟨S32x128, .f32⟩ : BufTy).Contents (Elt Ideal)) (x6 : (⟨S128, .f32⟩ : BufTy).Contents (Elt Ideal)) (x7 : (⟨S256x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (r : Fin 600000) (k : Fin 64) :
    val_main_v34 (F := Ideal) x0 x1 x2 x3 x4 x5 x6 x7 x8 (ix2 r k)
      = hidden2 (refWeights x3 x4 x5 x6 x7 x8 x9 x10) (row (val_main_v17 (F := Ideal) x0 x2) r)
          (edgeMsg (refWeights x3 x4 x5 x6 x7 x8 x9 x10) (hidden (refWeights x3 x4 x5 x6 x7 x8 x9 x10) (row (val_main_v10 (F := Ideal) x0 x2) r) (row (val_main_v17 (F := Ideal) x0 x2) r) (row x1 r))) k := by
  rw [val_main_v34_apply, val_main_v33_apply, val_main_v30_apply, zero2, bias32]
  simp only [lidx30, ridx30]
  rw [sum_split2]
  simp only [join2_dest, join2_msg, edgeMsg_entry x0 x1 x2 x3 x4 x5 x6 x7 x8 x9 x10]
  rfl

/-- The node message, at `(r, j)`. -/
theorem nodeMsg_entry (x0 : (⟨S50000x128, .f32⟩ : BufTy).Contents (Elt Ideal)) (x1 : (⟨S600000x64, .f32⟩ : BufTy).Contents (Elt Ideal)) (x2 : (⟨S2x600000, .i32⟩ : BufTy).Contents (Elt Ideal)) (x3 : (⟨S320x32, .f32⟩ : BufTy).Contents (Elt Ideal)) (x4 : (⟨S32, .f32⟩ : BufTy).Contents (Elt Ideal)) (x5 : (⟨S32x128, .f32⟩ : BufTy).Contents (Elt Ideal)) (x6 : (⟨S128, .f32⟩ : BufTy).Contents (Elt Ideal)) (x7 : (⟨S256x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) (r : Fin 600000) (j : Fin 128) :
    val_main_v39 (F := Ideal) x0 x1 x2 x3 x4 x5 x6 x7 x8 x9 x10 (ix2 r j)
      = msg (refWeights x3 x4 x5 x6 x7 x8 x9 x10) (row (val_main_v10 (F := Ideal) x0 x2) r) (row (val_main_v17 (F := Ideal) x0 x2) r) (row x1 r) j := by
  rw [val_main_v39_apply, val_main_v38_apply, val_main_v35_apply, zero3, bias37]
  simp only [lidx35, ridx35, hidden2_entry x0 x1 x2 x3 x4 x5 x6 x7 x8 x9 x10]
  rfl

/-- THE REFERENCE'S NODE MESSAGES are the edge network on every row of the gathered source rows, the gathered
    destination rows and the edge rows. -/
theorem nodeMsg_table (x0 : (⟨S50000x128, .f32⟩ : BufTy).Contents (Elt Ideal)) (x1 : (⟨S600000x64, .f32⟩ : BufTy).Contents (Elt Ideal)) (x2 : (⟨S2x600000, .i32⟩ : BufTy).Contents (Elt Ideal)) (x3 : (⟨S320x32, .f32⟩ : BufTy).Contents (Elt Ideal)) (x4 : (⟨S32, .f32⟩ : BufTy).Contents (Elt Ideal)) (x5 : (⟨S32x128, .f32⟩ : BufTy).Contents (Elt Ideal)) (x6 : (⟨S128, .f32⟩ : BufTy).Contents (Elt Ideal)) (x7 : (⟨S256x64, .f32⟩ : BufTy).Contents (Elt Ideal)) (x8 : (⟨S64, .f32⟩ : BufTy).Contents (Elt Ideal)) (x9 : (⟨S64x128, .f32⟩ : BufTy).Contents (Elt Ideal)) (x10 : (⟨S128, .f32⟩ : BufTy).Contents (Elt Ideal)) :
    val_main_v39 (F := Ideal) x0 x1 x2 x3 x4 x5 x6 x7 x8 x9 x10
      = table (refWeights x3 x4 x5 x6 x7 x8 x9 x10) (val_main_v10 (F := Ideal) x0 x2) (val_main_v17 (F := Ideal) x0 x2) x1 := by
  funext i
  obtain ⟨r, j, rfl⟩ : ∃ (r : Fin 600000) (j : Fin 128), i = ix2 r j := ⟨i 0, i 1, eq_ix2 i⟩
  exact nodeMsg_entry x0 x1 x2 x3 x4 x5 x6 x7 x8 x9 x10 r j

end Cert.ReferenceIdeal.Rows

end
-- ==== Proof.KernelResult.lean ====
/-
  The kernel's result, in the reference's terms.

  Before the region the kernel's program does what the reference does first: it cuts the two index rows out of
  `edge_index`, wraps negative indices, and gathers the source rows and the destination rows of the node table; it
  also cuts the first-layer matrices into their row blocks. So the three tables the region finds are the
  reference's gathered rows and edge rows, and the weights it finds are the reference's weights read block by
  block; the table of node messages the region leaves (`KernelTable`) is therefore the reference's node-message
  stage (`RefRows`). After the region both programs do the same thing to that table: a scatter-add into a zero
  table along the destination indices, then the sum with the node table. The scatter is never opened.
-/
import proofs.«163053_j33835752358328_2_alg».proof.Proof.KernelTable
import proofs.«163053_j33835752358328_2_alg».proof.Proof.RefRows
import Idealize.ShloMosaic.Lib.StableHlo.Run
import Idealize.ShloMosaic.Lib.ValueLayout

set_option maxRecDepth 16384

noncomputable section

namespace Cert.KernelIdeal.Result

open Cert.KernelIdeal Cert.KernelIdeal.Gen Cert.KernelIdeal.Table Cert.KernelIdeal.Row Cert.EdgeNet
open Idealize.ShloMosaic Idealize.ShloMosaic.ValueIdx Idealize.ShloMosaic.TcCoe Idealize.SL.Sem Idealize.ShloMosaic.StableHlo

variable (m : (ℓ : Loc nD τ sig) → Buf (Elt Ideal) ℓ)

/-! ## What the region finds -/

/-- The source rows the region finds are the reference's gathered source rows. -/
theorem src_found (c : Dev nD) :
    srcRows m c = Cert.ReferenceIdeal.Read.val_main_v10 (F := Ideal) (m ((c : Thread nD τ).loc main_arg0)) (m ((c : Thread nD τ).loc main_arg2)) := by
  show StableHlo.after hostOps0 (fun b => m (c, b)) (Proc.devRef .tc main_v10) = _
  after_results_simp <;> rfl

/-- The destination rows the region finds are the reference's gathered destination rows. -/
theorem dst_found (c : Dev nD) :
    dstRows m c = Cert.ReferenceIdeal.Read.val_main_v17 (F := Ideal) (m ((c : Thread nD τ).loc main_arg0)) (m ((c : Thread nD τ).loc main_arg2)) := by
  show StableHlo.after hostOps0 (fun b => m (c, b)) (Proc.devRef .tc main_v17) = _
  after_results_simp <;> rfl

/-- The destination indices the lines after the region read are the reference's. -/
theorem dstIdx_found (c : Dev nD) :
    (V m c main_v3 : S600000.Idx → BitVec 32) = Cert.ReferenceIdeal.Read.val_main_v3 (F := Ideal) (m ((c : Thread nD τ).loc main_arg2)) := by
  show StableHlo.after hostOps0 (fun b => m (c, b)) (Proc.devRef .tc main_v3) = _
  after_results_simp <;> rfl

theorem we1s_found (c : Dev nD) (a : Fin 128) (k : Fin 32) :
    (V m c main_v18 : S128x32.Idx → EReal) (ix2 a k) = (m ((c : Thread nD τ).loc main_arg3)) (ix2 (⟨a.val, by omega⟩ : Fin 320) k) := by
  have e : (V m c main_v18 : S128x32.Idx → EReal)
      = extractStridedSlice S128x32 ![0, 0] (m ((c : Thread nD τ).loc main_arg3)) Facts₀.slices_S320x32_S128x32_0_0 := by
    show StableHlo.after hostOps0 (fun b => m (c, b)) (Proc.devRef .tc main_v18) = _
    after_results_simp <;> rfl
  rw [e]
  exact slice2_axis0_apply 0 _ _ a k _ (Nat.zero_add _).symm

theorem we1d_found (c : Dev nD) (a : Fin 128) (k : Fin 32) :
    (V m c main_v19 : S128x32.Idx → EReal) (ix2 a k) = (m ((c : Thread nD τ).loc main_arg3)) (ix2 (⟨128 + a.val, by omega⟩ : Fin 320) k) := by
  have e : (V m c main_v19 : S128x32.Idx → EReal)
      = extractStridedSlice S128x32 ![128, 0] (m ((c : Thread nD τ).loc main_arg3)) Facts₀.slices_S320x32_S128x32_128_0 := by
    show StableHlo.after hostOps0 (fun b => m (c, b)) (Proc.devRef .tc main_v19) = _
    after_results_simp <;> rfl
  rw [e]
  exact slice2_axis0_apply 128 _ _ a k _ rfl

theorem we1e_found (c : Dev nD) (a : Fin 64) (k : Fin 32) :
    (V m c main_v20 : S64x32.Idx → EReal) (ix2 a k) = (m ((c : Thread nD τ).loc main_arg3)) (ix2 (⟨256 + a.val, by omega⟩ : Fin 320) k) := by
  have e : (V m c main_v20 : S64x32.Idx → EReal)
      = extractStridedSlice S64x32 ![256, 0] (m ((c : Thread nD τ).loc main_arg3)) Facts₀.slices_S320x32_S64x32_256_0 := by
    show StableHlo.after hostOps0 (fun b => m (c, b)) (Proc.devRef .tc main_v20) = _
    after_results_simp <;> rfl
  rw [e]
  exact slice2_axis0_apply 256 _ _ a k _ rfl

theorem wn1d_found (c : Dev nD) (a : Fin 128) (k : Fin 64) :
    (V m c main_v21 : S128x64.Idx → EReal) (ix2 a k) = (m ((c : Thread nD τ).loc main_arg7)) (ix2 (⟨a.val, by omega⟩ : Fin 256) k) := by
  have e : (V m c main_v21 : S128x64.Idx → EReal)
      = extractStridedSlice S128x64 ![0, 0] (m ((c : Thread nD τ).loc main_arg7)) Facts₀.slices_S256x64_S128x64_0_0 := by
    show StableHlo.after hostOps0 (fun b => m (c, b)) (Proc.devRef .tc main_v21) = _
    after_results_simp <;> rfl
  rw [e]
  exact slice2_axis0_apply 0 _ _ a k _ (Nat.zero_add _).symm

theorem wn1m_found (c : Dev nD) (a : Fin 128) (k : Fin 64) :
    (V m c main_v22 : S128x64.Idx → EReal) (ix2 a k) = (m ((c : Thread nD τ).loc main_arg7)) (ix2 (⟨128 + a.val, by omega⟩ : Fin 256) k) := by
  have e : (V m c main_v22 : S128x64.Idx → EReal)
      = extractStridedSlice S128x64 ![128, 0] (m ((c : Thread nD τ).loc main_arg7)) Facts₀.slices_S256x64_S128x64_128_0 := by
    show StableHlo.after hostOps0 (fun b => m (c, b)) (Proc.devRef .tc main_v22) = _
    after_results_simp <;> rfl
  rw [e]
  exact slice2_axis0_apply 128 _ _ a k _ rfl

/-- The weights the region finds are the reference's weights, the first-layer matrices read block by block. -/
theorem weights_found (c : Dev nD) :
    kernelWeights m c = Cert.ReferenceIdeal.Rows.refWeights (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold kernelWeights blockWeights Cert.ReferenceIdeal.Rows.refWeights
  simp only [we1s_found m c, we1d_found m c, we1e_found m c, wn1d_found m c, wn1m_found m c, V_main_arg4 m c, V_main_arg5 m c,
    V_main_arg6 m c, V_main_arg8 m c, V_main_arg9 m c, V_main_arg10 m c]

/-- THE TABLE the region leaves is the reference's node-message stage of the launch memory. -/
theorem table_found (c : Dev nD) :
    nodeTable m c = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  unfold nodeTable
  rw [weights_found m c, src_found m c, dst_found m c, show edgeRows m c = (m ((c : Thread nD τ).loc main_arg1)) from V_main_arg1 m c]
  exact (Cert.ReferenceIdeal.Rows.nodeMsg_table (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))).symm

/-! ## The lines after the region -/

/-- THE RESULT: after the scatter-add along the destination indices and the sum with the node table, @main's result is
    the reference's last stage of the launch memory. -/
theorem result (c : Dev nD) :
    Pipeline.afterTail₀ cfgs (dats m) 0 (V0 m) [hostOps1] c main_v27
      = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  have h0 : Pipeline.withArrays (cfgs 0).spec c (V0 m c) (fun w => (dats m 0 c).arrAt w (cfgs 0).N) (Proc.devRef .tc main_arg0) = (m ((c : Thread nD τ).loc main_arg0)) :=
    (Pipeline.withArrays_of_ne _ c (V0 m c) _ main_arg0 (by exact (by decide : ∀ w, Pipeline.arrRef spec0 w ≠ main_arg0))).trans
      (V_main_arg0 m c)
  have h3 : Pipeline.withArrays (cfgs 0).spec c (V0 m c) (fun w => (dats m 0 c).arrAt w (cfgs 0).N) (Proc.devRef .tc main_v3) = Cert.ReferenceIdeal.Read.val_main_v3 (F := Ideal) (m ((c : Thread nD τ).loc main_arg2)) :=
    (Pipeline.withArrays_of_ne _ c (V0 m c) _ main_v3 (by exact (by decide : ∀ w, Pipeline.arrRef spec0 w ≠ main_v3))).trans
      (dstIdx_found m c)
  have h23 : Pipeline.withArrays (cfgs 0).spec c (V0 m c) (fun w => (dats m 0 c).arrAt w (cfgs 0).N) (Proc.devRef .tc main_v23) = Cert.ReferenceIdeal.Read.val_main_v39 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
    ((Pipeline.withArrays_arr spec0 launch0.win.arr_inj c _ _ 14).trans (final m c)).trans (table_found m c)
  unfold Pipeline.afterTail₀
  show StableHlo.after hostOps1 _ (Proc.devRef .tc main_v27) = _
  after_results
  rw [h0, h3, h23]
  rfl

/-! ## The run -/

/-- Every weakly fair execution of the kernel's program terminates with @main's result at the reference's last stage
    of the launch memory, and the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v27) = Cert.ReferenceIdeal.Read.val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c =>
    ⟨((h c).2 main_v27 (Pipeline.mem_restRefs_of main_v27 (by decide) (by decide))).trans (result m c),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      ((h c).1 6).trans (((dats m 0 c).arrAt_in 6 rfl _).trans ((A_eq m c 6).trans (V_main_arg4 m c))),
      ((h c).1 7).trans (((dats m 0 c).arrAt_in 7 rfl _).trans ((A_eq m c 7).trans (V_main_arg5 m c))),
      ((h c).1 8).trans (((dats m 0 c).arrAt_in 8 rfl _).trans ((A_eq m c 8).trans (V_main_arg6 m c))),
      (((h c).2 main_arg7 (Pipeline.mem_restRefs_of main_arg7 (by decide) (by decide))).trans (W_main_arg7 m (dats m) c)),
      ((h c).1 11).trans (((dats m 0 c).arrAt_in 11 rfl _).trans ((A_eq m c 11).trans (V_main_arg8 m c))),
      ((h c).1 12).trans (((dats m 0 c).arrAt_in 12 rfl _).trans ((A_eq m c 12).trans (V_main_arg9 m c))),
      ((h c).1 13).trans (((dats m 0 c).arrAt_in 13 rfl _).trans ((A_eq m c 13).trans (V_main_arg10 m c)))⟩)
    (run_main m ρ)

end Cert.KernelIdeal.Result

end
-- ==== Proof.lean ====
/-
  A message-passing layer of a graph network: the kernel's program against its plain reference, over the extended reals.

  Both programs gather, for each of 600000 edges, the feature row of its source node and of its destination node;
  run a two-layer ReLU network on `[source | destination | edge features]` to get an edge message, and a second
  two-layer ReLU network on `[destination | edge message]` to get a node message; add the node messages up per
  destination node (a scatter-add into a zero table); and add the result to the node table.

  The two programs differ in one place only. The reference multiplies the joined 320-column (then 256-column)
  table by the whole first-layer matrix; the kernel never joins the tables: it cuts the matrix into the row blocks
  that face each piece and adds up one product per piece, 4000 edges at a time on a grid of 150 points. Over the
  extended reals (where rounding to bf16 on the way into a product is the identity) the long sum and the sum of the
  shorter ones are the same finite sum regrouped (`EdgeNet.sum_split3`, `sum_split2`), which holds in any additive
  commutative monoid: nothing is distributed or cancelled, so the finiteness of the inputs is never used.

  The modules: `EdgeNet` (the network on one edge, and the regrouping), `KernelProducts` and `KernelRow` (what one
  grid point stores, entry by entry), `KernelTable` (the 150 blocks are one table), `RefRows` (the reference's
  node messages are the same table), `KernelResult` (the gathers before the region and the scatter-add after it are
  the reference's own, so @main's result is the reference's last stage). The three frames are the generated ones; the
  idealization rewrote nothing, so `preserves` is `True`.
-/
import proofs.«163053_j33835752358328_2_alg».proof.Defs
import proofs.«163053_j33835752358328_2_alg».proof.Proof.Gen.Kernel
import proofs.«163053_j33835752358328_2_alg».proof.Proof.Gen.Kernel.Skeleton
import proofs.«163053_j33835752358328_2_alg».proof.Proof.Gen.Kernel.Launch
import proofs.«163053_j33835752358328_2_alg».proof.Proof.Gen.Kernel.Points
import proofs.«163053_j33835752358328_2_alg».proof.Proof.Gen.Kernel.Frame
import proofs.«163053_j33835752358328_2_alg».proof.Proof.Gen.KernelIdeal
import proofs.«163053_j33835752358328_2_alg».proof.Proof.Gen.KernelIdeal.Skeleton
import proofs.«163053_j33835752358328_2_alg».proof.Proof.Gen.KernelIdeal.Launch
import proofs.«163053_j33835752358328_2_alg».proof.Proof.Gen.KernelIdeal.Points
import proofs.«163053_j33835752358328_2_alg».proof.Proof.Gen.KernelIdeal.Frame
import proofs.«163053_j33835752358328_2_alg».proof.Proof.Gen.ReferenceIdeal
import proofs.«163053_j33835752358328_2_alg».proof.Proof.Gen.ReferenceIdeal.Run
import proofs.«163053_j33835752358328_2_alg».proof.Proof.Gen.ReferenceIdeal.Read
import proofs.«163053_j33835752358328_2_alg».proof.Proof.Gen.Pre_finite_inputs
import proofs.«163053_j33835752358328_2_alg».proof.Proof.KernelResult
import Idealize.ShloMosaic.Adequacy
import Idealize.ShloMosaic.Init

noncomputable section

namespace Cert.Proof

open Idealize.ShloMosaic Idealize.SL.Sem

/-- The kernel's program, word by word, terminates and leaves its arguments alone. -/
theorem frame_kernel : Cert.frame_Kernel := fun m ρ _ => Cert.Kernel.Gen.frame m ρ

/-- So does its reading over the extended reals. -/
theorem frame_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the reference's last stage of
    the arguments, which the kernel's program reaches by `KernelResult.run`. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v43_eq m' c, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
